-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x128 : Shape := ⟨3, ![128, 64, 128]⟩
abbrev S128x4096x32 : Shape := ⟨3, ![128, 4096, 32]⟩
abbrev S288x256 : Shape := ⟨2, ![288, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S128x64x128 : S_.BroadcastsInDim S128x64x128 (![] : Fin 0 → Fin S128x64x128.rank)
  reducesTo_S128x64x128_S_d0_1_2 : S128x64x128.ReducesTo [0, 1, 2] S_
  h_S_ : 0 < S_.numel
  bcast_S_S128x4096x32 : S_.BroadcastsInDim S128x4096x32 (![] : Fin 0 → Fin S128x4096x32.rank)
  reducesTo_S128x4096x32_S_d0_1_2 : S128x4096x32.ReducesTo [0, 1, 2] S_
  bcast_S_S288x256 : S_.BroadcastsInDim S288x256 (![] : Fin 0 → Fin S288x256.rank)
  reducesTo_S288x256_S_d0_1 : S288x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x1 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x1 .f32 := Host.absf main_arg6
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg7 main_v33

def fn {F : FTy → Type} [FloatOps F] (main_arg0 : FVec F S128x64x128 .f32) (main_arg1 : FVec F S128x4096x32 .f32) (main_arg2 : FVec F S288x256 .f32) (main_arg3 : FVec F S256 .f32) (main_arg4 : FVec F S256x256 .f32) (main_arg5 : FVec F S256 .f32) (main_arg6 : FVec F S256x1 .f32) (main_arg7 : FVec F S1 .f32) : IVec S_ 1 :=
  let main_v0 : FVec F S128x64x128 .f32 := Host.absf main_arg0
  let main_cst : FVec F S_ .f32 := constant S_ .f32 0x7F800000#32
  let main_v1 : FVec F S128x64x128 .f32 := broadcastInDim S128x64x128 ![] bcast_S_S128x64x128 main_cst
  let main_v2 : IVec S128x64x128 1 := cmpf .olt main_v0 main_v1
  let main_c : IVec S_ 1 := constantI S_ 1 1#1
  let main_v3 : IVec S_ 1 := (fun x v => Host.reduce IntOp.andi x v reducesTo_S128x64x128_S_d0_1_2 h_S_) main_v2 main_c
  let main_v4 : FVec F S128x4096x32 .f32 := Host.absf main_arg1
  let main_cst_0 : FVec F S_ .f32 := constant S_ .f32 0x7F800000#32
  let main_v5 : FVec F S128x4096x32 .f32 := broadcastInDim S128x4096x32 ![] bcast_S_S128x4096x32 main_cst_0
  let main_v6 : IVec S128x4096x32 1 := cmpf .olt main_v4 main_v5
  let main_c_1 : IVec S_ 1 := constantI S_ 1 1#1
  let main_v7 : IVec S_ 1 := (fun x v => Host.reduce IntOp.andi x v reducesTo_S128x4096x32_S_d0_1_2 h_S_) main_v6 main_c_1
  let main_v8 : IVec S_ 1 := andi main_v3 main_v7
  let main_v9 : FVec F S288x256 .f32 := Host.absf main_arg2
  let main_cst_2 : FVec F S_ .f32 := constant S_ .f32 0x7F800000#32
  let main_v10 : FVec F S288x256 .f32 := broadcastInDim S288x256 ![] bcast_S_S288x256 main_cst_2
  let main_v11 : IVec S288x256 1 := cmpf .olt main_v9 main_v10
  let main_c_3 : IVec S_ 1 := constantI S_ 1 1#1
  let main_v12 : IVec S_ 1 := (fun x v => Host.reduce IntOp.andi x v reducesTo_S288x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S128x64x128 : Shape := ⟨3, ![128, 64, 128]⟩
abbrev S128x4096x32 : Shape := ⟨3, ![128, 4096, 32]⟩
abbrev S288x256 : Shape := ⟨2, ![288, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S128x256 : Shape := ⟨2, ![128, 256]⟩
abbrev S32x256 : Shape := ⟨2, ![32, 256]⟩
abbrev S1x256 : Shape := ⟨2, ![1, 256]⟩
abbrev S128x4096 : Shape := ⟨2, ![128, 4096]⟩
abbrev S8x64x128 : Shape := ⟨3, ![8, 64, 128]⟩
abbrev S8x1024x32 : Shape := ⟨3, ![8, 1024, 32]⟩
abbrev S8x1024 : Shape := ⟨2, ![8, 1024]⟩
abbrev S8x16x128 : Shape := ⟨3, ![8, 16, 128]⟩
abbrev S128x128 : Shape := ⟨2, ![128, 128]⟩
abbrev S512x128 : Shape := ⟨2, ![512, 128]⟩
abbrev S8192x32 : Shape := ⟨2, ![8192, 32]⟩
abbrev S8x16x1x256 : Shape := ⟨4, ![8, 16, 1, 256]⟩
abbrev S512x256 : Shape := ⟨2, ![512, 256]⟩
abbrev S8x1x64x256 : Shape := ⟨4, ![8, 1, 64, 256]⟩
abbrev S8192x256 : Shape := ⟨2, ![8192, 256]⟩
abbrev S8x16x64x256 : Shape := ⟨4, ![8, 16, 64, 256]⟩
abbrev S1x1x1x256 : Shape := ⟨4, ![1, 1, 1, 256]⟩
abbrev S8192 : Shape := ⟨1, ![8192]⟩
abbrev S128x4096x1 : Shape := ⟨3, ![128, 4096, 1]⟩

abbrev nBuf : Space → Nat
  | .hbm => 15
  | .vmem => 14
  | .smem => 0
  | _ => 0

abbrev bufTy : (tb : Table) → Fin (tcTables nBuf tb) → BufTy
  | .hbm, ⟨0, _⟩ => ⟨S128x64x128, .f32⟩
  | .hbm, ⟨1, _⟩ => ⟨S128x4096x32, .f32⟩
  | .hbm, ⟨2, _⟩ => ⟨S288x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S128x256, .f32⟩
  | .hbm, ⟨9, _⟩ => ⟨S32x256, .f32⟩
  | .hbm, ⟨10, _⟩ => ⟨S128x256, .f32⟩
  | .hbm, ⟨11, _⟩ => ⟨S256x256, .bf16⟩
  | .hbm, ⟨12, _⟩ => ⟨S1x256, .f32⟩
  | .hbm, ⟨13, _⟩ => ⟨S128x4096, .f32⟩
  | .hbm, ⟨14, _⟩ => ⟨S128x4096x1, .f32⟩
  | .local _ .vmem, ⟨0, _⟩ => ⟨S8x64x128, .f32⟩
  | .local _ .vmem, ⟨1, _⟩ => ⟨S8x64x128, .f32⟩
  | .local _ .vmem, ⟨2, _⟩ => ⟨S8x1024x32, .f32⟩
  | .local _ .vmem, ⟨3, _⟩ => ⟨S8x1024x32, .f32⟩
  | .local _ .vmem, ⟨4, _⟩ => ⟨S128x256, .f32⟩
  | .local _ .vmem, ⟨5, _⟩ => ⟨S32x256, .f32⟩
  | .local _ .vmem, ⟨6, _⟩ => ⟨S128x256, .f32⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S1x256, .f32⟩
  | .local _ .vmem, ⟨11, _⟩ => ⟨S1, .f32⟩
  | .local _ .vmem, ⟨12, _⟩ => ⟨S8x1024, .f32⟩
  | .local _ .vmem, ⟨13, _⟩ => ⟨S8x1024, .f32⟩
  | _, _ => ⟨S128x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c16_i32 : BitVec 32 := 16#32
  let v0 : BitVec 32 := Scalar.muli arg1 c16_i32
  v0
def k0_off1 (i : grid0.Coords) : Fin 3 → Nat :=
  let c0_2 : Index := 0#32
  let arg1 : BitVec 32 := BitVec.ofNat 32 (i 1).val
  let c16_i32 : BitVec 32 := 16#32
  let v0 : BitVec 32 := Scalar.muli arg1 c16_i32
  let v1 : BitVec 32 := v0
  let v3 : Index := Scalar.indexCast v1
  let c0_3 : Index := 0#32
  ![0, v3.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  slices_S288x256_S128x256_0_0 : S288x256.Slices ![0, 0] S128x256
  slices_S288x256_S32x256_128_0 : S288x256.Slices ![128, 0] S32x256
  slices_S288x256_S128x256_160_0 : S288x256.Slices ![160, 0] S128x256
  bitsLt_bf16_f32 : FTy.bits .bf16 < FTy.bits .f32
  transposes_S256x1_S1x256_1_0 : S256x1.Transposes [1, 0] S1x256
  inb_S8x64x128_S8x64x128_0_0_0 : ∀ a, (![0, 0, 0] : Fin 3 → Nat) a + S8x64x128.size a ≤ S8x64x128.size a
  h_S8x64x128 : 0 < S8x64x128.numel
  h_S8x16x128 : 0 < S8x16x128.numel
  shapeCasts_S8x16x128_S128x128 : S8x16x128.ShapeCasts S128x128
  shapeCasts_S8x64x128_S512x128 : S8x64x128.ShapeCasts S512x128
  inb_S8x1024x32_S8x1024x32_0_0_0 : ∀ a, (![0, 0, 0] : Fin 3 → Nat) a + S8x1024x32.size a ≤ S8x1024x32.size a
  h_S8x1024x32 : 0 < S8x1024x32.numel
  shapeCasts_S8x1024x32_S8192x32 : S8x1024x32.ShapeCasts S8192x32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S128x256_S8x16x1x256 : S128x256.ShapeCasts S8x16x1x256
  shapeCasts_S512x256_S8x1x64x256 : S512x256.ShapeCasts S8x1x64x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  shapeCasts_S8192x256_S8x16x64x256 : S8192x256.ShapeCasts S8x16x64x256
  broadcasts_S8x16x1x256_S8x16x64x256 : S8x16x1x256.Broadcasts S8x16x64x256
  broadcasts_S8x1x64x256_S8x16x64x256 : S8x1x64x256.Broadcasts S8x16x64x256
  inb_S256_S256_0 : ∀ a, (![0] : Fin 1 → Nat) a + S256.size a ≤ S256.size a
  h_S256 : 0 < S256.numel
  shapeCasts_S256_S1x1x1x256 : S256.ShapeCasts S1x1x1x256
  broadcasts_S1x1x1x256_S8x16x64x256 : S1x1x1x256.Broadcasts S8x16x64x256
  shapeCasts_S8x16x64x256_S8192x256 : S8x16x64x256.ShapeCasts S8192x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S1x256 : S256.ShapeCasts S1x256
  broadcasts_S1x256_S8192x256 : S1x256.Broadcasts S8192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S8192x256_S8192 : S8192x256.Reduces [1] S8192
  inb_S1_S1_0 : ∀ a, (![0] : Fin 1 → Nat) a + S1.size a ≤ S1.size a
  h_S1 : 0 < S1.numel
  inpos_S1_p0 : ∀ a, (![0] : Fin 1 → Nat) a < S1.size a
  shapeCasts_S8192_S8x1024 : S8192.ShapeCasts S8x1024
  inb_S8x1024_S8x1024_0_0 : ∀ a, (![0, 0] : Fin 2 → Nat) a + S8x1024.size a ≤ S8x1024.size a
  h_S8x1024 : 0 < S8x1024.numel
  bcast_S128x4096_S128x4096x1_0_1 : S128x4096.BroadcastsInDim S128x4096x1 (![0, 1] : Fin 2 → Fin S128x4096x1.rank)
  dot_S128x128_S128x256_S128x256_1_0_0_1_n_n_wf : DotDims.WF S128x128 S128x256 S128x256 [1] [0] [0] [1] [] []
  dot_S512x128_S128x256_S512x256_1_0_0_1_n_n_wf : DotDims.WF S512x128 S128x256 S512x256 [1] [0] [0] [1] [] []
  dot_S8192x32_S32x256_S8192x256_1_0_0_1_n_n_wf : DotDims.WF S8192x32 S32x256 S8192x256 [1] [0] [0] [1] [] []
  dot_S8192x256_S256x256_S8192x256_1_0_0_1_n_n_wf : DotDims.WF S8192x256 S256x256 S8192x256 [1] [0] [0] [1] [] []
  hrank0 : 0 < grid0.rank
  k0_mult1_dvd : ∀ i : grid0.Coords, 16 ∣ (k0_mult1 i).toNat
  k0_off1_inb : ∀ i : grid0.Coords, ∀ a, (k0_off1 i) a + S8x16x128.size a ≤ S8x64x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x128.size a ≤ S128x64x128.size a
  hwx0_0 : ∀ i : grid0.Coords, EltTy.bits .f32 = 32 ∨ (Rect.block (s := S128x64x128) S8x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024x32.size a ≤ S128x4096x32.size a
  hwx0_1 : ∀ i : grid0.Coords, EltTy.bits .f32 = 32 ∨ (Rect.block (s := S128x4096x32) S8x1024x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x256.size a
  hwx0_3 : ∀ i : grid0.Coords, EltTy.bits .f32 = 32 ∨ (Rect.block (s := S32x256) S32x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x1024.size a ≤ S128x4096.size a
  hwx0_10 : ∀ i : grid0.Coords, EltTy.bits .f32 = 32 ∨ (Rect.block (s := S128x4096) S8x1024.size (cc0_transform_10 i) (hinb0_10 i)).WholeWords (EltTy.packing .f32)

variable [Facts₀]

def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S8192x32_S32x256_S8192x256_1_0_0_1_n_n : DotDims S8192x32 S32x256 S8192x256 where
  lhsContracting := [1]
  rhsContracting := [0]
  lhsNonContracting := [0]
  rhsNonContracting := [1]
  lhsBatch := []
  rhsBatch := []
  wf := dot_S8192x32_S32x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

abbrev win0_0 : Pipeline.Window sig grid0 :=
  Pipeline.Window.ofSpec (Memref.whole main_arg0) S8x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S8x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S128x64x128 : Shape := ⟨3, ![128, 64, 128]⟩
abbrev S128x4096x32 : Shape := ⟨3, ![128, 4096, 32]⟩
abbrev S288x256 : Shape := ⟨2, ![288, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S128x64x1x128 : Shape := ⟨4, ![128, 64, 1, 128]⟩
abbrev S128x64x64x128 : Shape := ⟨4, ![128, 64, 64, 128]⟩
abbrev S128x4096x128 : Shape := ⟨3, ![128, 4096, 128]⟩
abbrev S128x1x64x128 : Shape := ⟨4, ![128, 1, 64, 128]⟩
abbrev S128x4096x288 : Shape := ⟨3, ![128, 4096, 288]⟩
abbrev S128x4096x256 : Shape := ⟨3, ![128, 4096, 256]⟩
abbrev S1x1x256 : Shape := ⟨3, ![1, 1, 256]⟩
abbrev S_ : Shape := ⟨0, ![]⟩
abbrev S128x4096x1 : Shape := ⟨3, ![128, 4096, 1]⟩
abbrev S1x1x1 : Shape := ⟨3, ![1, 1, 1]⟩

abbrev nBuf : Space → Nat
  | .hbm => 33
  | .vmem => 0
  | .smem => 0
  | _ => 0

abbrev bufTy : (tb : Table) → Fin (tcTables nBuf tb) → BufTy
  | .hbm, ⟨0, _⟩ => ⟨S128x64x128, .f32⟩
  | .hbm, ⟨1, _⟩ => ⟨S128x4096x32, .f32⟩
  | .hbm, ⟨2, _⟩ => ⟨S288x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S128x64x1x128, .f32⟩
  | .hbm, ⟨9, _⟩ => ⟨S128x64x64x128, .f32⟩
  | .hbm, ⟨10, _⟩ => ⟨S128x4096x128, .f32⟩
  | .hbm, ⟨11, _⟩ => ⟨S128x1x64x128, .f32⟩
  | .hbm, ⟨12, _⟩ => ⟨S128x64x64x128, .f32⟩
  | .hbm, ⟨13, _⟩ => ⟨S128x4096x128, .f32⟩
  | .hbm, ⟨14, _⟩ => ⟨S128x4096x288, .f32⟩
  | .hbm, ⟨15, _⟩ => ⟨S128x4096x256, .f32⟩
  | .hbm, ⟨16, _⟩ => ⟨S1x1x256, .f32⟩
  | .hbm, ⟨17, _⟩ => ⟨S128x4096x256, .f32⟩
  | .hbm, ⟨18, _⟩ => ⟨S128x4096x256, .f32⟩
  | .hbm, ⟨19, _⟩ => ⟨S_, .f32⟩
  | .hbm, ⟨20, _⟩ => ⟨S128x4096x256, .f32⟩
  | .hbm, ⟨21, _⟩ => ⟨S128x4096x256, .f32⟩
  | .hbm, ⟨22, _⟩ => ⟨S128x4096x256, .f32⟩
  | .hbm, ⟨23, _⟩ => ⟨S1x1x256, .f32⟩
  | .hbm, ⟨24, _⟩ => ⟨S128x4096x256, .f32⟩
  | .hbm, ⟨25, _⟩ => ⟨S128x4096x256, .f32⟩
  | .hbm, ⟨26, _⟩ => ⟨S_, .f32⟩
  | .hbm, ⟨27, _⟩ => ⟨S128x4096x256, .f32⟩
  | .hbm, ⟨28, _⟩ => ⟨S128x4096x256, .f32⟩
  | .hbm, ⟨29, _⟩ => ⟨S128x4096x1, .f32⟩
  | .hbm, ⟨30, _⟩ => ⟨S1x1x1, .f32⟩
  | .hbm, ⟨31, _⟩ => ⟨S128x4096x1, .f32⟩
  | .hbm, ⟨32, _⟩ => ⟨S128x4096x1, .f32⟩
  | _, _ => ⟨S128x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_cst : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S128x64x128_S128x64x1x128_0_1_3 : S128x64x128.BroadcastsInDim S128x64x1x128 (![0, 1, 3] : Fin 3 → Fin S128x64x1x128.rank)
  bcast_S128x64x1x128_S128x64x64x128_0_1_2_3 : S128x64x1x128.BroadcastsInDim S128x64x64x128 (![0, 1, 2, 3] : Fin 4 → Fin S128x64x64x128.rank)
  shapeCasts_S128x64x64x128_S128x4096x128 : S128x64x64x128.ShapeCasts S128x4096x128
  bcast_S128x64x128_S128x1x64x128_0_2_3 : S128x64x128.BroadcastsInDim S128x1x64x128 (![0, 2, 3] : Fin 3 → Fin S128x1x64x128.rank)
  bcast_S128x1x64x128_S128x64x64x128_0_1_2_3 : S128x1x64x128.BroadcastsInDim S128x64x64x128 (![0, 1, 2, 3] : Fin 4 → Fin S128x64x64x128.rank)
  concatenates_S128x4096x128_S128x4096x32_S128x4096x128_S128x4096x288_d2 : Shape.Concatenates [S128x4096x128, S128x4096x32, S128x4096x128] S128x4096x288 2
  bcast_S256_S1x1x256_2 : S256.BroadcastsInDim S1x1x256 (![2] : Fin 1 → Fin S1x1x256.rank)
  bcast_S1x1x256_S128x4096x256_0_1_2 : S1x1x256.BroadcastsInDim S128x4096x256 (![0, 1, 2] : Fin 3 → Fin S128x4096x256.rank)
  bcast_S_S128x4096x256 : S_.BroadcastsInDim S128x4096x256 (![] : Fin 0 → Fin S128x4096x256.rank)
  bcast_S1_S1x1x1_2 : S1.BroadcastsInDim S1x1x1 (![2] : Fin 1 → Fin S1x1x1.rank)
  bcast_S1x1x1_S128x4096x1_0_1_2 : S1x1x1.BroadcastsInDim S128x4096x1 (![0, 1, 2] : Fin 3 → Fin S128x4096x1.rank)
  dot_S128x4096x288_S288x256_S128x4096x256_2_0_01_1_n_n_wf : DotDims.WF S128x4096x288 S288x256 S128x4096x256 [2] [0] [0, 1] [1] [] []
  dot_S128x4096x256_S256x256_S128x4096x256_2_0_01_1_n_n_wf : DotDims.WF S128x4096x256 S256x256 S128x4096x256 [2] [0] [0, 1] [1] [] []
  dot_S128x4096x256_S256x1_S128x4096x1_2_0_01_1_n_n_wf : DotDims.WF S128x4096x256 S256x1 S128x4096x1 [2] [0] [0, 1] [1] [] []

variable [Facts₀]

def dot_S128x4096x288_S288x256_S128x4096x256_2_0_01_1_n_n : DotDims S128x4096x288 S288x256 S128x4096x256 where
  lhsContracting := [2]
  rhsContracting := [0]
  lhsNonContracting := [0, 1]
  rhsNonContracting := [1]
  lhsBatch := []
  rhsBatch := []
  wf := dot_S128x4096x288_S288x256_S128x4096x256_2_0_01_1_n_n_wf
def dot_S128x4096x256_S256x256_S128x4096x256_2_0_01_1_n_n : DotDims S128x4096x256 S256x256 S128x4096x256 where
  lhsContracting := [2]
  rhsContracting := [0]
  lhsNonContracting := [0, 1]
  rhsNonContracting := [1]
  lhsBatch := []
  rhsBatch := []
  wf := dot_S128x4096x256_S256x256_S128x4096x256_2_0_01_1_n_n_wf
def dot_S128x4096x256_S256x1_S128x4096x1_2_0_01_1_n_n : DotDims S128x4096x256 S256x1 S128x4096x1 where
  lhsContracting := [2]
  rhsContracting := [0]
  lhsNonContracting := [0, 1]
  rhsNonContracting := [1]
  lhsBatch := []
  rhsBatch := []
  wf := dot_S128x4096x256_S256x1_S128x4096x1_2_0_01_1_n_n_wf

class Facts : Prop extends Facts₀ where

variable [Facts]
-- ==== Proof.Pieces.lean ====
/-
  What one grid point of the kernel leaves in the output block, as one pure function of the blocks it was handed.

  The body loads its ten input blocks whole (and, of the node block, also the sixteen node rows this grid point pairs
  with every node: rows 16·t₁ … 16·t₁ + 15), computes, and writes the whole [8, 1024] output block with one store. So
  the block it leaves is that store's value: the output layer applied to the second hidden layer applied to the first
  hidden layer of the loaded blocks. This holds for any reading of the float operations.
-/
import proofs.«146328_j40922448396322_2_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem

namespace Cert.KernelSide

open Cert.KernelIdeal Cert.KernelIdeal.Gen

variable {F : FTy → Type} [FloatOps F]

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The sixteen node rows a grid point pairs with every node, cut out of the node block `x0`: the rows from
    16 · (the point's second coordinate) on. -/
abbrev rowsI (i : grid0.Coords) (x0 : Vec F S8x64x128 .f32) : Vec F S8x16x128 .f32 :=
  View.ld x0 (Rect.unit (s := S8x64x128) (k0_off1 i) S8x16x128.size (k0_off1_inb i))

/-- The output block one grid point leaves: the body's single store covers the whole block, and its value is the
    three layers applied to the loaded blocks (every load but the node-row one reads a whole block). -/
theorem out_block (c : Dev nD) (i : grid0.Coords) (arg2 : Memref sig .tc .vmem S8x64x128 .f32) (harg2 : arg2.IsWhole) (arg3 : Memref sig .tc .vmem S8x1024x32 .f32) (harg3 : arg3.IsWhole) (arg4 : Memref sig .tc .vmem S128x256 .f32) (harg4 : arg4.IsWhole) (arg5 : Memref sig .tc .vmem S32x256 .f32) (harg5 : arg5.IsWhole) (arg6 : Memref sig .tc .vmem S128x256 .f32) (harg6 : arg6.IsWhole) (arg7 : Memref sig .tc .vmem S256 .f32) (harg7 : arg7.IsWhole) (arg8 : Memref sig .tc .vmem S256x256 .bf16) (harg8 : arg8.IsWhole) (arg9 : Memref sig .tc .vmem S256 .f32) (harg9 : arg9.IsWhole) (arg10 : Memref sig .tc .vmem S1x256 .f32) (harg10 : arg10.IsWhole) (arg11 : Memref sig .tc .vmem S1 .f32) (harg11 : arg11.IsWhole) (arg12 : Memref sig .tc .vmem S8x1024 .f32) (harg12 : arg12.IsWhole)
    (x0 : Vec F S8x64x128 .f32) (x1 : Vec F S8x1024x32 .f32) (x2 : Vec F S128x256 .f32) (x3 : Vec F S32x256 .f32) (x4 : Vec F S128x256 .f32) (x5 : Vec F S256 .f32) (x6 : Vec F S256x256 .bf16) (x7 : Vec F S256 .f32) (x8 : Vec F S1x256 .f32) (x9 : Vec F S1 .f32) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9
      = k0_pay1 (k0_pay2 x0 (rowsI i x0) x1 x2 x4 x3 x5) (k0_pay3 x6) (constant S8192x256 .f32 0x00000000#32) x7 x8 x9 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun0_A
  dsimp only
  sl_unfold_run_names
  rw [View.canon_unit_zero zeros2]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S8x64x128) zeros3, View.ld_unit_zero (S := S8x1024x32) zeros3,
    View.ld_unit_zero (S := S128x256) zeros2, View.ld_unit_zero (S := S32x256) zeros2,
    View.ld_unit_zero (S := S256x256) zeros2, View.ld_unit_zero (S := S1x256) zeros2,
    View.ld_unit_zero (S := S256) zeros1, View.ld_unit_zero (S := S1) zeros1]

/-- Node row `ii` of those sixteen is node row `16 · t₁ + ii` of the block. -/
theorem rowsI_at (i : grid0.Coords) (x0 : Vec F S8x64x128 .f32) (bb : Fin 8) (ii : Fin 16) (k : Fin 128) :
    rowsI i x0 (ValueIdx.ix3 bb ii k)
      = x0 (ValueIdx.ix3 bb (⟨16 * (i 1).val + ii.val, by have h1 : (i 1).val < 4 := (i 1).isLt; have := ii.isLt; omega⟩ : Fin 64) k) := by
  show x0 _ = x0 _
  refine congrArg x0 (funext fun a => Fin.ext ?_)
  match a with
  | ⟨0, _⟩ => show k0_off1 i 0 + 1 * bb.val = bb.val; rw [k0_off1_eq]; show 0 + 1 * bb.val = bb.val; omega
  | ⟨1, _⟩ => show k0_off1 i 1 + 1 * ii.val = 16 * (i 1).val + ii.val; rw [k0_off1_eq]; show 16 * (i 1).val + 1 * ii.val = _; omega
  | ⟨2, _⟩ => show k0_off1 i 2 + 1 * k.val = k.val; rw [k0_off1_eq]; show 0 + 1 * k.val = k.val; omega

end Cert.KernelSide

end
-- ==== Proof.Spec.lean ====
/-
  The function both programs compute, one output entry at a time.

  For a batch `b` and a pair `p = i·64 + j` of nodes the network reads one joined row of 288 features — node `i`'s
  128 features, the pair's 32 edge features, node `j`'s 128 features — and applies three layers:
  `a₁ = max(row·W₁ + b₁, 0)`, `a₂ = max(a₁·W₂ + b₂, 0)`, `out = a₂·W₃ + b₃`.
  The contraction of the joined row against W₁ is written here already split into its three stretches, edge stretch
  first: (edge part + node-i part) + node-j part. Splitting a finite sum over 288 consecutive positions into the sums
  over its stretches, and adding the stretches in another order, uses only that addition on the extended reals is
  commutative and associative, so nothing below needs the inputs to be finite.
  Nothing here depends on a program.
-/
import Idealize.ShloMosaic.PureOps.Ideal
import Idealize.ShloMosaic.Lib.ValueIdx

noncomputable section

namespace Cert.PairMLP

open Idealize.ShloMosaic Idealize.ShloMosaic.ValueIdx

/-- The first hidden layer of one pair, at hidden unit `h`: the three stretches of the joined row (edge features `xe`,
    node-i features `xi`, node-j features `xj`) against their rows of the first weight matrix (`wb`, `wa`, `wc`), the
    bias `c1`, and the maximum with zero. -/
def hid1 (wa : Fin 128 → Fin 256 → EReal) (wb : Fin 32 → Fin 256 → EReal) (wc : Fin 128 → Fin 256 → EReal)
    (c1 : Fin 256 → EReal) (xe : Fin 32 → EReal) (xi xj : Fin 128 → EReal) (h : Fin 256) : EReal :=
  max (((∑ k : Fin 32, xe k * wb k h + ∑ k : Fin 128, xi k * wa k h) + ∑ k : Fin 128, xj k * wc k h) + c1 h) 0

/-- The second hidden layer at unit `k`, from the first layer's activations `a1`. -/
def hid2 (w2 : Fin 256 → Fin 256 → EReal) (c2 : Fin 256 → EReal) (a1 : Fin 256 → EReal) (k : Fin 256) : EReal :=
  max (∑ h : Fin 256, a1 h * w2 h k + c2 k) 0

/-- The output layer: one number per pair, from the second layer's activations `a2`. -/
def score (w3 : Fin 256 → EReal) (c3 : EReal) (a2 : Fin 256 → EReal) : EReal :=
  ∑ k : Fin 256, a2 k * w3 k + c3

/-- The network's output for batch `b` and pair `p`, from the argument arrays: node `i = p / 64`, node `j = p % 64`;
    rows 0–127 of W₁ meet node i, rows 128–159 the edge features, rows 160–287 node j. -/
def outAt (nodes : (⟨3, ![128, 64, 128]⟩ : Shape).Idx → EReal) (edges : (⟨3, ![128, 4096, 32]⟩ : Shape).Idx → EReal)
    (W1 : (⟨2, ![288, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 1]⟩ : Shape).Idx → EReal) (b3 : (⟨1, ![1]⟩ : Shape).Idx → EReal)
    (b : Fin 128) (p : Fin 4096) : EReal :=
  score (fun k => W3 (ix2 k (0 : Fin 1))) (b3 (ix1 (0 : Fin 1)))
    (hid2 (fun h k => W2 (ix2 h k)) (fun k => b2 (ix1 k))
      (hid1 (fun k h => W1 (ix2 (⟨k.val, by have := k.isLt; omega⟩ : Fin 288) h))
        (fun k h => W1 (ix2 (⟨128 + k.val, by have := k.isLt; omega⟩ : Fin 288) h))
        (fun k h => W1 (ix2 (⟨160 + k.val, by have := k.isLt; omega⟩ : Fin 288) h))
        (fun h => b1 (ix1 h))
        (fun k => edges (ix3 b p k))
        (fun k => nodes (ix3 b (⟨p.val / 64, by have := p.isLt; omega⟩ : Fin 64) k))
        (fun k => nodes (ix3 b (⟨p.val % 64, by omega⟩ : Fin 64) k))))

/-- The whole result array [128, 4096, 1]: entry (b, p, 0) is `outAt … b p`. -/
def G (nodes : (⟨3, ![128, 64, 128]⟩ : Shape).Idx → EReal) (edges : (⟨3, ![128, 4096, 32]⟩ : Shape).Idx → EReal)
    (W1 : (⟨2, ![288, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 1]⟩ : Shape).Idx → EReal) (b3 : (⟨1, ![1]⟩ : Shape).Idx → EReal) :
    (⟨3, ![128, 4096, 1]⟩ : Shape).Idx → EReal :=
  fun idx => outAt nodes edges W1 b1 W2 b2 W3 b3 (idx 0) (idx 1)

/-- The same outputs laid out as the matrix [128, 4096] the kernel's call produces. -/
def G2 (nodes : (⟨3, ![128, 64, 128]⟩ : Shape).Idx → EReal) (edges : (⟨3, ![128, 4096, 32]⟩ : Shape).Idx → EReal)
    (W1 : (⟨2, ![288, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 1]⟩ : Shape).Idx → EReal) (b3 : (⟨1, ![1]⟩ : Shape).Idx → EReal) :
    (⟨2, ![128, 4096]⟩ : Shape).Idx → EReal :=
  fun idx => outAt nodes edges W1 b1 W2 b2 W3 b3 (idx 0) (idx 1)

end Cert.PairMLP

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.BodyHid1.lean ====
/-
  The kernel body's first stored value, read one entry at a time.

  The body views its three loaded blocks as matrices (8 × 16 node-i rows as 128 rows, 8 × 64 node-j rows as 512 rows,
  8 × 1024 pairs as 8192 rows), multiplies each by its stretch of the first weight matrix, views the three products as
  rank-4 arrays indexed by (batch, node-i row, node j, hidden unit) — the node-i product repeated along node j, the
  node-j product repeated along node i —, adds them, adds the bias, takes the maximum with zero, and views the result as
  8192 rows again. A view changes no entry: it reads the operand at the index with the same row-major position, so every
  step below is one such position equation, closed by linear arithmetic, and the products are read by the sum formula
  for a matrix product accumulated into zero. Row r of the result is batch r / 1024, node-i row r / 64 % 16, node j r % 64.
-/
import proofs.«146328_j40922448396322_2_alg».proof.Proof.Spec
import proofs.«146328_j40922448396322_2_alg».proof.Proof.LibMatmulAt
import proofs.«146328_j40922448396322_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.BodySide.Hid1

open Idealize.ShloMosaic Idealize.ShloMosaic.ValueIdx Cert.KernelIdeal Cert.PairMLP

/-! ## The views, read at an index -/

section Views
variable {α : Type}

/-- The rank-4 array viewed as 8192 rows: row r is (r / 1024, r / 64 % 16, r % 64). -/
theorem rows_of_rank4 (x : S8x16x64x256.Idx → α) (hc : S8x16x64x256.ShapeCasts S8192x256) (r : Fin 8192) (c : Fin 256) :
    shapeCast S8192x256 x hc (ix2 r c)
      = x (ix4 (⟨r.val / 1024, by have := r.isLt; omega⟩ : Fin 8) (⟨r.val / 64 % 16, by omega⟩ : Fin 16)
            (⟨r.val % 64, by omega⟩ : Fin 64) c) := by
  refine shapeCast_apply x hc _ _ ?_
  rw [Shape.rowMajor_val_four, Shape.rowMajor_val_two]
  have := r.isLt
  show ((r.val / 1024 * 16 + r.val / 64 % 16) * 64 + r.val % 64) * 256 + c.val = r.val * 256 + c.val
  omega

/-- 8192 rows viewed as the rank-4 array: entry (b, i, j) is row (b·16 + i)·64 + j. -/
theorem rank4_of_rows (x : S8192x256.Idx → α) (hc : S8192x256.ShapeCasts S8x16x64x256)
    (bb : Fin 8) (ii : Fin 16) (j : Fin 64) (c : Fin 256) :
    shapeCast S8x16x64x256 x hc (ix4 bb ii j c)
      = x (ix2 (⟨(bb.val * 16 + ii.val) * 64 + j.val, by have := bb.isLt; have := ii.isLt; have := j.isLt; omega⟩ : Fin 8192) c) := by
  refine shapeCast_apply x hc _ _ ?_
  rw [Shape.rowMajor_val_two, Shape.rowMajor_val_four]
  show ((bb.val * 16 + ii.val) * 64 + j.val) * 256 + c.val = ((bb.val * 16 + ii.val) * 64 + j.val) * 256 + c.val
  rfl

/-- 128 rows viewed as [8, 16, 1, 256]: entry (b, i, 0) is row b·16 + i. -/
theorem nodei4_of_rows (x : S128x256.Idx → α) (hc : S128x256.ShapeCasts S8x16x1x256)
    (bb : Fin 8) (ii : Fin 16) (z : Fin 1) (c : Fin 256) :
    shapeCast S8x16x1x256 x hc (ix4 bb ii z c)
      = x (ix2 (⟨bb.val * 16 + ii.val, by have := bb.isLt; have := ii.isLt; omega⟩ : Fin 128) c) := by
  refine shapeCast_apply x hc _ _ ?_
  rw [Shape.rowMajor_val_two, Shape.rowMajor_val_four]
  have := z.isLt
  show (bb.val * 16 + ii.val) * 256 + c.val = ((bb.val * 16 + ii.val) * 1 + z.val) * 256 + c.val
  omega

/-- 512 rows viewed as [8, 1, 64, 256]: entry (b, 0, j) is row b·64 + j. -/
theorem nodej4_of_rows (x : S512x256.Idx → α) (hc : S512x256.ShapeCasts S8x1x64x256)
    (bb : Fin 8) (z : Fin 1) (j : Fin 64) (c : Fin 256) :
    shapeCast S8x1x64x256 x hc (ix4 bb z j c)
      = x (ix2 (⟨bb.val * 64 + j.val, by have := bb.isLt; have := j.isLt; omega⟩ : Fin 512) c) := by
  refine shapeCast_apply x hc _ _ ?_
  rw [Shape.rowMajor_val_two, Shape.rowMajor_val_four]
  have := z.isLt
  show (bb.val * 64 + j.val) * 256 + c.val = ((bb.val * 1 + z.val) * 64 + j.val) * 256 + c.val
  omega

/-- The node-i rows [8, 16, 128] viewed as 128 rows: row b·16 + i is (b, i). -/
theorem rows_of_nodei (x : S8x16x128.Idx → α) (hc : S8x16x128.ShapeCasts S128x128)
    (bb : Fin 8) (ii : Fin 16) (k : Fin 128) :
    shapeCast S128x128 x hc (ix2 (⟨bb.val * 16 + ii.val, by have := bb.isLt; have := ii.isLt; omega⟩ : Fin 128) k)
      = x (ix3 bb ii k) := by
  refine shapeCast_apply x hc _ _ ?_
  rw [Shape.rowMajor_val_three, Shape.rowMajor_val_two]
  show (bb.val * 16 + ii.val) * 128 + k.val = (bb.val * 16 + ii.val) * 128 + k.val
  rfl

/-- The node rows [8, 64, 128] viewed as 512 rows: row b·64 + j is (b, j). -/
theorem rows_of_nodej (x : S8x64x128.Idx → α) (hc : S8x64x128.ShapeCasts S512x128)
    (bb : Fin 8) (j : Fin 64) (k : Fin 128) :
    shapeCast S512x128 x hc (ix2 (⟨bb.val * 64 + j.val, by have := bb.isLt; have := j.isLt; omega⟩ : Fin 512) k)
      = x (ix3 bb j k) := by
  refine shapeCast_apply x hc _ _ ?_
  rw [Shape.rowMajor_val_three, Shape.rowMajor_val_two]
  show (bb.val * 64 + j.val) * 128 + k.val = (bb.val * 64 + j.val) * 128 + k.val
  rfl

/-- The pairs [8, 1024, 32] viewed as 8192 rows: row (b·16 + i)·64 + j is (b, i·64 + j). -/
theorem rows_of_pairs (x : S8x1024x32.Idx → α) (hc : S8x1024x32.ShapeCasts S8192x32)
    (bb : Fin 8) (ii : Fin 16) (j : Fin 64) (k : Fin 32) :
    shapeCast S8192x32 x hc
        (ix2 (⟨(bb.val * 16 + ii.val) * 64 + j.val, by have := bb.isLt; have := ii.isLt; have := j.isLt; omega⟩ : Fin 8192) k)
      = x (ix3 bb (⟨ii.val * 64 + j.val, by have := ii.isLt; have := j.isLt; omega⟩ : Fin 1024) k) := by
  refine shapeCast_apply x hc _ _ ?_
  rw [Shape.rowMajor_val_three, Shape.rowMajor_val_two]
  show (bb.val * 1024 + (ii.val * 64 + j.val)) * 32 + k.val = ((bb.val * 16 + ii.val) * 64 + j.val) * 32 + k.val
  omega

/-- The bias [256] viewed as [1, 1, 1, 256]. -/
theorem bias4_of_vec (x : S256.Idx → α) (hc : S256.ShapeCasts S1x1x1x256) (z0 z1 z2 : Fin 1) (c : Fin 256) :
    shapeCast S1x1x1x256 x hc (ix4 z0 z1 z2 c) = x (ix1 c) := by
  refine shapeCast_apply x hc _ _ ?_
  rw [Shape.rowMajor_val_one, Shape.rowMajor_val_four]
  have := z0.isLt; have := z1.isLt; have := z2.isLt
  show c.val = (((z0.val * 1 + z1.val) * 1 + z2.val) * 256 + c.val)
  omega

/-- [8, 16, 1, 256] repeated along node j. -/
theorem rep_along_j (x : S8x16x1x256.Idx → α) (hb : S8x16x1x256.Broadcasts S8x16x64x256)
    (bb : Fin 8) (ii : Fin 16) (j : Fin 64) (c : Fin 256) :
    broadcastTo S8x16x64x256 x hb (ix4 bb ii j c) = x (ix4 bb ii (⟨0, Nat.one_pos⟩ : Fin 1) c) :=
  broadcastTo_apply x hb _ _ (fun a => match a with
    | ⟨0, _⟩ => by show bb.val = if (8 : Nat) = 1 then 0 else bb.val; rw [if_neg (by decide)]
    | ⟨1, _⟩ => by show ii.val = if (16 : Nat) = 1 then 0 else ii.val; rw [if_neg (by decide)]
    | ⟨2, _⟩ => by show 0 = if (1 : Nat) = 1 then 0 else j.val; rw [if_pos rfl]
    | ⟨3, _⟩ => by show c.val = if (256 : Nat) = 1 then 0 else c.val; rw [if_neg (by decide)])

/-- [8, 1, 64, 256] repeated along node i. -/
theorem rep_along_i (x : S8x1x64x256.Idx → α) (hb : S8x1x64x256.Broadcasts S8x16x64x256)
    (bb : Fin 8) (ii : Fin 16) (j : Fin 64) (c : Fin 256) :
    broadcastTo S8x16x64x256 x hb (ix4 bb ii j c) = x (ix4 bb (⟨0, Nat.one_pos⟩ : Fin 1) j c) :=
  broadcastTo_apply x hb _ _ (fun a => match a with
    | ⟨0, _⟩ => by show bb.val = if (8 : Nat) = 1 then 0 else bb.val; rw [if_neg (by decide)]
    | ⟨1, _⟩ => by show 0 = if (1 : Nat) = 1 then 0 else ii.val; rw [if_pos rfl]
    | ⟨2, _⟩ => by show j.val = if (64 : Nat) = 1 then 0 else j.val; rw [if_neg (by decide)]
    | ⟨3, _⟩ => by show c.val = if (256 : Nat) = 1 then 0 else c.val; rw [if_neg (by decide)])

/-- [1, 1, 1, 256] repeated along batch, node i and node j. -/
theorem rep_bias (x : S1x1x1x256.Idx → α) (hb : S1x1x1x256.Broadcasts S8x16x64x256)
    (bb : Fin 8) (ii : Fin 16) (j : Fin 64) (c : Fin 256) :
    broadcastTo S8x16x64x256 x hb (ix4 bb ii j c)
      = x (ix4 (⟨0, Nat.one_pos⟩ : Fin 1) (⟨0, Nat.one_pos⟩ : Fin 1) (⟨0, Nat.one_pos⟩ : Fin 1) c) :=
  broadcastTo_apply x hb _ _ (fun a => match a with
    | ⟨0, _⟩ => by show 0 = if (1 : Nat) = 1 then 0 else bb.val; rw [if_pos rfl]
    | ⟨1, _⟩ => by show 0 = if (1 : Nat) = 1 then 0 else ii.val; rw [if_pos rfl]
    | ⟨2, _⟩ => by show 0 = if (1 : Nat) = 1 then 0 else j.val; rw [if_pos rfl]
    | ⟨3, _⟩ => by show c.val = if (256 : Nat) = 1 then 0 else c.val; rw [if_neg (by decide)])

end Views

/-! ## The three products and the bias, read at (batch, node-i row, node j, hidden unit) -/

/-- The edge stretch: the pairs' features times their rows of the first weight matrix. -/
theorem edge_term (v7 : Vec Ideal S8x1024x32 .f32) (v17 : Vec Ideal S32x256 .f32)
    (h1 : S8x1024x32.ShapeCasts S8192x32) (h2 : S32x256.ShapeCasts S32x256) (h3 : S8192x256.ShapeCasts S8x16x64x256)
    (bb : Fin 8) (ii : Fin 16) (j : Fin 64) (c : Fin 256) :
    shapeCast S8x16x64x256
        (matmul dot_S8192x32_S32x256_S8192x256_1_0_0_1_n_n (some .fp32) (shapeCast S8192x32 v7 h1 : FVec Ideal S8192x32 .f32) (shapeCast S32x256 v17 h2 : FVec Ideal S32x256 .f32)
          (constant (F := Ideal) S8192x256 .f32 0x00000000#32)) h3 (ix4 bb ii j c)
      = ∑ k : Fin 32, v7 (ix3 bb (⟨ii.val * 64 + j.val, by have := ii.isLt; have := j.isLt; omega⟩ : Fin 1024) k) * v17 (ix2 k c) := by
  refine (rank4_of_rows _ h3 bb ii j c).trans ?_
  refine (Cert.KernelIdeal.Hand.matmul_zero_plain_apply _ rfl _ _ _ _).trans ?_
  refine Finset.sum_congr rfl fun k _ => ?_
  rw [shapeCast_self]
  exact congrArg (· * v17 (ix2 k c)) (rows_of_pairs v7 h1 bb ii j k)

/-- The node-i stretch, repeated along node j. -/
theorem nodei_term (v4 : Vec Ideal S8x16x128 .f32) (v9 : Vec Ideal S128x256 .f32)
    (h1 : S8x16x128.ShapeCasts S128x128) (h2 : S128x256.ShapeCasts S128x256) (h3 : S128x256.ShapeCasts S8x16x1x256)
    (h4 : S8x16x1x256.Broadcasts S8x16x64x256) (bb : Fin 8) (ii : Fin 16) (j : Fin 64) (c : Fin 256) :
    broadcastTo S8x16x64x256
        (shapeCast S8x16x1x256
          (matmul dot_S128x128_S128x256_S128x256_1_0_0_1_n_n (some .fp32) (shapeCast S128x128 v4 h1 : FVec Ideal S128x128 .f32) (shapeCast S128x256 v9 h2 : FVec Ideal S128x256 .f32)
            (constant (F := Ideal) S128x256 .f32 0x00000000#32)) h3) h4 (ix4 bb ii j c)
      = ∑ k : Fin 128, v4 (ix3 bb ii k) * v9 (ix2 k c) := by
  refine (rep_along_j _ h4 bb ii j c).trans ?_
  refine (nodei4_of_rows _ h3 bb ii _ c).trans ?_
  refine (Cert.KernelIdeal.Hand.matmul_zero_plain_apply _ rfl _ _ _ _).trans ?_
  refine Finset.sum_congr rfl fun k _ => ?_
  rw [shapeCast_self]
  exact congrArg (· * v9 (ix2 k c)) (rows_of_nodei v4 h1 bb ii k)

/-- The node-j stretch, repeated along node i. -/
theorem nodej_term (v2 : Vec Ideal S8x64x128 .f32) (v13 : Vec Ideal S128x256 .f32)
    (h1 : S8x64x128.ShapeCasts S512x128) (h2 : S128x256.ShapeCasts S128x256) (h3 : S512x256.ShapeCasts S8x1x64x256)
    (h4 : S8x1x64x256.Broadcasts S8x16x64x256) (bb : Fin 8) (ii : Fin 16) (j : Fin 64) (c : Fin 256) :
    broadcastTo S8x16x64x256
        (shapeCast S8x1x64x256
          (matmul dot_S512x128_S128x256_S512x256_1_0_0_1_n_n (some .fp32) (shapeCast S512x128 v2 h1 : FVec Ideal S512x128 .f32) (shapeCast S128x256 v13 h2 : FVec Ideal S128x256 .f32)
            (constant (F := Ideal) S512x256 .f32 0x00000000#32)) h3) h4 (ix4 bb ii j c)
      = ∑ k : Fin 128, v2 (ix3 bb j k) * v13 (ix2 k c) := by
  refine (rep_along_i _ h4 bb ii j c).trans ?_
  refine (nodej4_of_rows _ h3 bb _ j c).trans ?_
  refine (Cert.KernelIdeal.Hand.matmul_zero_plain_apply _ rfl _ _ _ _).trans ?_
  refine Finset.sum_congr rfl fun k _ => ?_
  rw [shapeCast_self]
  exact congrArg (· * v13 (ix2 k c)) (rows_of_nodej v2 h1 bb j k)

/-- The bias, repeated along batch, node i and node j. -/
theorem bias_term (v25 : Vec Ideal S256 .f32) (h1 : S256.ShapeCasts S1x1x1x256) (h2 : S1x1x1x256.Broadcasts S8x16x64x256)
    (bb : Fin 8) (ii : Fin 16) (j : Fin 64) (c : Fin 256) :
    broadcastTo S8x16x64x256 (shapeCast S1x1x1x256 v25 h1) h2 (ix4 bb ii j c) = v25 (ix1 c) :=
  (rep_bias _ h2 bb ii j c).trans (bias4_of_vec v25 h1 _ _ _ c)

end Cert.BodySide.Hid1

namespace Cert.BodySide

open Idealize.ShloMosaic Idealize.ShloMosaic.ValueIdx Cert.KernelIdeal Cert.PairMLP Cert.BodySide.Hid1

/-! ## The stored value at row r, hidden unit h -/

/-- Row `r` of the stored [8192, 256] value is the first hidden layer of batch `r / 1024` of the block and pair
    `r % 1024` (node-i row `r / 64 % 16` of this grid point's sixteen, node j `r % 64`): the three products are read by
    the sum formula, the views by their row-major positions, and the rounding to bf16 changes no ideal value. -/
theorem pay2_apply (v2 : Vec Ideal S8x64x128 .f32) (v4 : Vec Ideal S8x16x128 .f32) (v7 : Vec Ideal S8x1024x32 .f32)
    (v9 : Vec Ideal S128x256 .f32) (v13 : Vec Ideal S128x256 .f32) (v17 : Vec Ideal S32x256 .f32) (v25 : Vec Ideal S256 .f32)
    (r : Fin 8192) (h : Fin 256) :
    Cert.KernelIdeal.Gen.k0_pay2 (F := Ideal) v2 v4 v7 v9 v13 v17 v25 (ix2 r h)
      = hid1 (fun k h' => v9 (ix2 k h')) (fun k h' => v17 (ix2 k h')) (fun k h' => v13 (ix2 k h')) (fun h' => v25 (ix1 h'))
          (fun k => v7 (ix3 (⟨r.val / 1024, by have := r.isLt; omega⟩ : Fin 8) (⟨r.val % 1024, by omega⟩ : Fin 1024) k))
          (fun k => v4 (ix3 (⟨r.val / 1024, by have := r.isLt; omega⟩ : Fin 8) (⟨r.val / 64 % 16, by omega⟩ : Fin 16) k))
          (fun k => v2 (ix3 (⟨r.val / 1024, by have := r.isLt; omega⟩ : Fin 8) (⟨r.val % 64, by omega⟩ : Fin 64) k)) h := by
  unfold Cert.KernelIdeal.Gen.k0_pay2
  refine (truncf_apply (ψ := .bf16) _ Cert.KernelIdeal.Gen.bitsLt_bf16_f32 (ix2 r h)).trans ?_
  refine (rows_of_rank4 _ _ r h).trans ?_
  rw [maximumf_apply, addf_apply, addf_apply, addf_apply, broadcast_apply,
    edge_term, nodei_term, nodej_term, bias_term]
  have hz : (FloatOps.ofBits (F := Ideal) .f32 0x00000000#32 : Ideal .f32) = 0 := Ideal.ofBits_zero_f32
  have hp : (⟨r.val / 64 % 16 * 64 + r.val % 64, by omega⟩ : Fin 1024) = ⟨r.val % 1024, by omega⟩ := Fin.ext (show r.val / 64 % 16 * 64 + r.val % 64 = r.val % 1024 by omega)
  rw [hz, hp]
  rfl

end Cert.BodySide

end
-- ==== Proof.BodyOut.lean ====
/-
  The kernel body's last value, read one entry at a time.

  From the first layer's activations of a block's 8192 pairs (a matrix [8192, 256]) the body forms the second hidden
  layer — the product with the second weight matrix [256, 256], the bias added to every row, the maximum with zero —
  and the output layer — each row multiplied entry by entry with the third weight matrix written as one row, summed
  along the row, the output bias added — and lays the 8192 numbers out as a matrix [8, 1024]. Entry (bb, q) of that matrix
  is row bb·1024 + q of the vector, so it is the network's output layer applied to the second hidden layer of the
  activations in that row.

  Every step is one operation read at an index: the pointwise ones (sum, product, maximum, a splat constant) read through
  by definition; the others — the change of shape [8192] → [8, 1024], the sum along a row, a vector [256] or a row
  [1, 256] repeated over 8192 rows, the matrix product into the zero matrix, the one entry of a vector [1] — each get a
  small lemma below, stated over variables of the literal shapes. Sums are over the extended reals and nothing is
  rearranged, so no finiteness is needed.
-/
import proofs.«146328_j40922448396322_2_alg».proof.Proof.Spec
import proofs.«146328_j40922448396322_2_alg».proof.Proof.LibMatmulAt
import proofs.«146328_j40922448396322_2_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.BodySide

open Idealize.ShloMosaic Idealize.ShloMosaic.ValueIdx Cert.KernelIdeal Cert.PairMLP

/-- The second weight matrix passes through a change of shape [256, 256] → [256, 256], which is the identity. -/
theorem pay3_eq (v33 : Vec Ideal S256x256 .bf16) : Cert.KernelIdeal.Gen.k0_pay3 (F := Ideal) v33 = v33 :=
  shapeCast_self v33 _

/-- A vector [8192] viewed as a matrix [8, 1024]: entry (bb, q) is the vector's entry bb·1024 + q, the two having the
    same row-major position. -/
theorem cast_rows_apply (x : S8192.Idx → EReal) (h : S8192.ShapeCasts S8x1024) (bb : Fin 8) (q : Fin 1024) :
    shapeCast S8x1024 x h (ix2 bb q)
      = x (ix1 (⟨bb.val * 1024 + q.val, by have := bb.isLt; have := q.isLt; omega⟩ : Fin 8192)) :=
  shapeCast_apply x h _ _ (by
    rw [Shape.rowMajor_val_one, Shape.rowMajor_val_two]
    rfl)

/-- The sum of a matrix [8192, 256] along its rows, from the zero accumulator: entry r is the sum over the 256 columns k
    of the matrix at (r, k). The index the one-axis law inserts has coordinates (r, k) by computation. -/
theorem row_sum_apply (src : FVec Ideal S8192x256 .f32) (h : S8192x256.Reduces [1] S8192) (hφ : FKind.Formats .f32)
    (hacc : (0x00000000#32 : BitVec 32) = FKind.add.neutral .f32 hφ) (r : Fin 8192) :
    multiReduction (F := Ideal) .add [1] S8192 src 0x00000000#32 h hφ hacc (ix1 r) = ∑ k : Fin 256, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- A vector [256] written as one row [1, 256] and repeated over 8192 rows: entry (r, k) is the vector's entry k. -/
theorem bias_rows_apply (v : S256.Idx → EReal) (h1 : S256.ShapeCasts S1x256) (h2 : S1x256.Broadcasts S8192x256)
    (r : Fin 8192) (k : Fin 256) :
    broadcastTo S8192x256 (shapeCast S1x256 v h1) h2 (ix2 r k) = v (ix1 k) :=
  (broadcastTo_1b_ab_apply _ h2 r k).trans (shapeCast_a_1a_apply v h1 0 k)

/-- A row [1, 256], after a change of shape to itself, repeated over 8192 rows: entry (r, k) is the row's entry (0, k). -/
theorem row_rows_apply (v : S1x256.Idx → EReal) (h1 : S1x256.ShapeCasts S1x256) (h2 : S1x256.Broadcasts S8192x256)
    (r : Fin 8192) (k : Fin 256) :
    broadcastTo S8192x256 (shapeCast S1x256 v h1) h2 (ix2 r k) = v (ix2 (0 : Fin 1) k) :=
  (broadcastTo_1b_ab_apply _ h2 r k).trans (congrFun (shapeCast_self v h1) _)

/-- The entry at position 0 of a vector [1] is the vector at its one index. -/
theorem extract_one_apply (v : S1.Idx → EReal) (h : ∀ a, (![0] : Fin 1 → Nat) a < S1.size a) :
    extractAt ![0] v h = v (ix1 (0 : Fin 1)) :=
  congrArg v (funext fun a => match a with | ⟨0, _⟩ => rfl)

/-- The product of the activations [8192, 256] with the second weight matrix [256, 256], accumulated into the zero
    matrix: entry (r, k) is the sum over h of activation (r, h) times weight (h, k). The body's dimension numbers are the
    plain ones: the left operand's columns contracted against the right operand's rows. -/
theorem layer2_apply (a1 : FVec Ideal S8192x256 .bf16) (w2 : FVec Ideal S256x256 .bf16) (r : Fin 8192) (k : Fin 256) :
    matmul dot_S8192x256_S256x256_S8192x256_1_0_0_1_n_n none a1 w2 (constant (F := Ideal) S8192x256 .f32 0x00000000#32) (ix2 r k)
      = ∑ h : Fin 256, a1 (ix2 r h) * w2 (ix2 h k) :=
  Cert.KernelIdeal.Hand.matmul_zero_plain_apply _ rfl none a1 w2 (ix2 r k)

/-- Entry (bb, q) of the body's last value is the output layer (weights the row `v42`, bias the one entry of `v47`)
    applied to the second hidden layer (weights `w2`, bias `v36`) of row bb·1024 + q of the activations `a1`.
    Outermost operation first: the change of shape names the row; the sum with the repeated output bias splits; the row
    sum becomes a sum over the 256 hidden units k; in each term the product splits into the maximum with the zero splat
    (whose word is the extended real 0) of the matrix product's entry plus the bias's entry, times the row's entry. -/
theorem pay1_apply (a1 : FVec Ideal S8192x256 .bf16) (w2 : FVec Ideal S256x256 .bf16) (v36 : Vec Ideal S256 .f32)
    (v42 : Vec Ideal S1x256 .f32) (v47 : Vec Ideal S1 .f32) (bb : Fin 8) (q : Fin 1024) :
    Cert.KernelIdeal.Gen.k0_pay1 (F := Ideal) a1 w2 (constant (F := Ideal) S8192x256 .f32 0x00000000#32) v36 v42 v47 (ix2 bb q)
      = score (fun k => v42 (ix2 (0 : Fin 1) k)) (v47 (ix1 (0 : Fin 1)))
          (hid2 (fun h k => w2 (ix2 h k)) (fun k => v36 (ix1 k))
            (fun h => a1 (ix2 (⟨bb.val * 1024 + q.val, by have := bb.isLt; have := q.isLt; omega⟩ : Fin 8192) h))) := by
  unfold Cert.KernelIdeal.Gen.k0_pay1 Cert.PairMLP.score Cert.PairMLP.hid2
  refine (cast_rows_apply _ _ bb q).trans ?_
  refine (addf_apply _ _ _).trans ?_
  refine congrArg₂ (· + ·) ?_ (extract_one_apply v47 _)
  refine (row_sum_apply _ _ _ _ _).trans ?_
  refine Finset.sum_congr rfl fun k _ => ?_
  refine (mulf_apply _ _ _).trans ?_
  refine congrArg₂ (· * ·) ?_ (row_rows_apply v42 _ _ _ k)
  refine (maximumf_apply _ _ _).trans ?_
  refine congrArg₂ max ?_ Ideal.ofBits_zero_f32
  refine (addf_apply _ _ _).trans ?_
  exact congrArg₂ (· + ·) (layer2_apply a1 w2 _ k) (bias_rows_apply v36 _ _ _ k)

end Cert.BodySide

end
-- ==== Proof.BlockValue.lean ====
/-
  One entry of the output block a grid point leaves, as the three layers applied to one pair's row of the loaded blocks.

  The last value of the body is the output layer over the second hidden layer of row bb·1024 + q of the first layer's
  activations; that row is batch bb of the block, pair q: its edge features are row q of the batch's edge block, its
  node-i features row q / 64 of the sixteen node rows the point cut out (node row 16·t₁ + q / 64 of the block), its
  node-j features node row q % 64.
-/
import proofs.«146328_j40922448396322_2_alg».proof.Proof.Pieces
import proofs.«146328_j40922448396322_2_alg».proof.Proof.Spec
import proofs.«146328_j40922448396322_2_alg».proof.Proof.BodyHid1
import proofs.«146328_j40922448396322_2_alg».proof.Proof.BodyOut

noncomputable section

open Idealize.ShloMosaic Idealize.ShloMosaic.TcCoe Idealize.SL.Sem Idealize.ShloMosaic.ValueIdx

namespace Cert.KernelSide

open Cert.KernelIdeal Cert.KernelIdeal.Gen Cert.PairMLP

theorem block_apply (i : grid0.Coords) (x0 : Vec Ideal S8x64x128 .f32) (x1 : Vec Ideal S8x1024x32 .f32) (x2 : Vec Ideal S128x256 .f32)
    (x3 : Vec Ideal S32x256 .f32) (x4 : Vec Ideal S128x256 .f32) (x5 : Vec Ideal S256 .f32) (x6 : Vec Ideal S256x256 .bf16)
    (x7 : Vec Ideal S256 .f32) (x8 : Vec Ideal S1x256 .f32) (x9 : Vec Ideal S1 .f32) (bb : Fin 8) (q : Fin 1024) :
    k0_pay1 (F := Ideal) (k0_pay2 x0 (rowsI i x0) x1 x2 x4 x3 x5) (k0_pay3 x6) (constant (F := Ideal) S8192x256 .f32 0x00000000#32) x7 x8 x9 (ix2 bb q)
      = score (fun k => x8 (ix2 (0 : Fin 1) k)) (x9 (ix1 (0 : Fin 1)))
          (hid2 (fun h k => x6 (ix2 h k)) (fun k => x7 (ix1 k))
            (hid1 (fun k h => x2 (ix2 k h)) (fun k h => x3 (ix2 k h)) (fun k h => x4 (ix2 k h)) (fun h => x5 (ix1 h))
              (fun k => x1 (ix3 bb q k))
              (fun k => x0 (ix3 bb (⟨16 * (i 1).val + q.val / 64, by have h1 : (i 1).val < 4 := (i 1).isLt; have := q.isLt; omega⟩ : Fin 64) k))
              (fun k => x0 (ix3 bb (⟨q.val % 64, by omega⟩ : Fin 64) k)))) := by
  rw [Cert.BodySide.pay3_eq]
  refine (Cert.BodySide.pay1_apply _ _ x7 x8 x9 bb q).trans ?_
  refine congrArg (score _ _) (congrArg (hid2 _ _) (funext fun h => ?_))
  refine (Cert.BodySide.pay2_apply x0 (rowsI i x0) x1 x2 x4 x3 x5 _ h).trans ?_
  have hb : ∀ p, (⟨(bb.val * 1024 + q.val) / 1024, p⟩ : Fin 8) = bb := fun p =>
    Fin.ext (show (bb.val * 1024 + q.val) / 1024 = bb.val by have := q.isLt; omega)
  have hq : ∀ p, (⟨(bb.val * 1024 + q.val) % 1024, p⟩ : Fin 1024) = q := fun p =>
    Fin.ext (show (bb.val * 1024 + q.val) % 1024 = q.val by have := q.isLt; omega)
  refine congrFun (congr (congr (congrArg (hid1 _ _ _ _) ?_) ?_) ?_) h
  · funext k
    show x1 (ix3 (⟨(bb.val * 1024 + q.val) / 1024, _⟩ : Fin 8) (⟨(bb.val * 1024 + q.val) % 1024, _⟩ : Fin 1024) k) = _
    rw [hb, hq]
  · funext k
    show rowsI i x0 (ix3 (⟨(bb.val * 1024 + q.val) / 1024, _⟩ : Fin 8) (⟨(bb.val * 1024 + q.val) / 64 % 16, _⟩ : Fin 16) k) = _
    rw [hb, rowsI_at]
    refine congrArg x0 (congrArg (fun n => ix3 bb n k) (Fin.ext ?_))
    show 16 * (i 1).val + (bb.val * 1024 + q.val) / 64 % 16 = 16 * (i 1).val + q.val / 64
    have := q.isLt
    omega
  · funext k
    show x0 (ix3 (⟨(bb.val * 1024 + q.val) / 1024, _⟩ : Fin 8) (⟨(bb.val * 1024 + q.val) % 64, _⟩ : Fin 64) k) = _
    rw [hb]
    refine congrArg x0 (congrArg (fun n => ix3 bb n k) (Fin.ext ?_))
    show (bb.val * 1024 + q.val) % 64 = q.val % 64
    omega

end Cert.KernelSide

end
-- ==== Proof.HostSide.lean ====
/-
  What the kernel's call finds in the arrays the host prepared for it, and what the host makes of its result.

  Before the call the host cuts the first weight matrix W₁ [288, 256] into its three row stretches (rows 0–127 for
  node i, rows 128–159 for the edge features, rows 160–287 for node j), rounds W₂ to the narrower float format (the
  identity on the ideal values), and transposes W₃ [256, 1] into a row [1, 256]. After the call it gives the
  [128, 4096] result a trailing axis of extent one. Each is read here at an index.
-/
import proofs.«146328_j40922448396322_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelSide

open Cert.KernelIdeal Cert.KernelIdeal.Gen

variable {F : FTy → Type} [FloatOps F]
variable (m : (ℓ : Loc nD τ sig) → Buf (Elt F) ℓ)

/-- The rows of W₁ that meet node i, as the call finds them: the slice from row 0. -/
theorem V_w1a (c : Dev nD) :
    (V m c main_v0 : S128x256.Idx → Elt F .f32)
      = extractStridedSlice S128x256 ![0, 0] (m ((c : Thread nD τ).loc main_arg2)) slices_S288x256_S128x256_0_0 := by
  show StableHlo.after hostOps0 (fun b => m (c, b)) (Proc.devRef .tc main_v0) = _
  after_results

/-- The rows of W₁ that meet the edge features: the slice from row 128. -/
theorem V_w1b (c : Dev nD) :
    (V m c main_v1 : S32x256.Idx → Elt F .f32)
      = extractStridedSlice S32x256 ![128, 0] (m ((c : Thread nD τ).loc main_arg2)) slices_S288x256_S32x256_128_0 := by
  show StableHlo.after hostOps0 (fun b => m (c, b)) (Proc.devRef .tc main_v1) = _
  after_results

/-- The rows of W₁ that meet node j: the slice from row 160. -/
theorem V_w1c (c : Dev nD) :
    (V m c main_v2 : S128x256.Idx → Elt F .f32)
      = extractStridedSlice S128x256 ![160, 0] (m ((c : Thread nD τ).loc main_arg2)) slices_S288x256_S128x256_160_0 := by
  show StableHlo.after hostOps0 (fun b => m (c, b)) (Proc.devRef .tc main_v2) = _
  after_results

/-- W₂ in the narrower format. -/
theorem V_w2 (c : Dev nD) :
    (V m c main_v3 : S256x256.Idx → Elt F .bf16)
      = truncf .bf16 (m ((c : Thread nD τ).loc main_arg4)) bitsLt_bf16_f32 := by
  show StableHlo.after hostOps0 (fun b => m (c, b)) (Proc.devRef .tc main_v3) = _
  after_results

/-- W₃ as a row. -/
theorem V_w3row (c : Dev nD) :
    (V m c main_v4 : S1x256.Idx → Elt F .f32)
      = transpose S1x256 [1, 0] (m ((c : Thread nD τ).loc main_arg6)) transposes_S256x1_S1x256_1_0 := by
  show StableHlo.after hostOps0 (fun b => m (c, b)) (Proc.devRef .tc main_v4) = _
  after_results

/-! ## The prepared arrays read at an index -/

section Reads
variable {α : Type}

/-- Row `k` of the node-i stretch is row `k` of W₁. -/
theorem w1a_at (W1 : S288x256.Idx → α) (k : Fin 128) (h : Fin 256) :
    extractStridedSlice S128x256 ![0, 0] W1 slices_S288x256_S128x256_0_0 (ix2 k h)
      = W1 (ix2 (⟨k.val, by have := k.isLt; omega⟩ : Fin 288) h) :=
  extractStridedSlice_apply ![0, 0] W1 slices_S288x256_S128x256_0_0 (ix2 k h) (ix2 (⟨k.val, by have := k.isLt; omega⟩ : Fin 288) h)
    (fun a => match a with
      | ⟨0, _⟩ => by show k.val = 0 + k.val; omega
      | ⟨1, _⟩ => by show h.val = 0 + h.val; omega)

/-- Row `k` of the edge stretch is row `128 + k` of W₁. -/
theorem w1b_at (W1 : S288x256.Idx → α) (k : Fin 32) (h : Fin 256) :
    extractStridedSlice S32x256 ![128, 0] W1 slices_S288x256_S32x256_128_0 (ix2 k h)
      = W1 (ix2 (⟨128 + k.val, by have := k.isLt; omega⟩ : Fin 288) h) :=
  extractStridedSlice_apply ![128, 0] W1 slices_S288x256_S32x256_128_0 (ix2 k h) (ix2 (⟨128 + k.val, by have := k.isLt; omega⟩ : Fin 288) h)
    (fun a => match a with
      | ⟨0, _⟩ => by show 128 + k.val = 128 + k.val; rfl
      | ⟨1, _⟩ => by show h.val = 0 + h.val; omega)

/-- Row `k` of the node-j stretch is row `160 + k` of W₁. -/
theorem w1c_at (W1 : S288x256.Idx → α) (k : Fin 128) (h : Fin 256) :
    extractStridedSlice S128x256 ![160, 0] W1 slices_S288x256_S128x256_160_0 (ix2 k h)
      = W1 (ix2 (⟨160 + k.val, by have := k.isLt; omega⟩ : Fin 288) h) :=
  extractStridedSlice_apply ![160, 0] W1 slices_S288x256_S128x256_160_0 (ix2 k h) (ix2 (⟨160 + k.val, by have := k.isLt; omega⟩ : Fin 288) h)
    (fun a => match a with
      | ⟨0, _⟩ => by show 160 + k.val = 160 + k.val; rfl
      | ⟨1, _⟩ => by show h.val = 0 + h.val; omega)

/-- Entry `k` of the row is entry `k` of the column W₃. -/
theorem w3row_at (W3 : S256x1.Idx → α) (k : Fin 256) :
    transpose S1x256 [1, 0] W3 transposes_S256x1_S1x256_1_0 (ix2 (0 : Fin 1) k) = W3 (ix2 k (0 : Fin 1)) :=
  transpose_apply [1, 0] W3 transposes_S256x1_S1x256_1_0 (ix2 (0 : Fin 1) k) (ix2 k (0 : Fin 1))
    (fun b => match b with
      | ⟨0, _⟩ => rfl
      | ⟨1, _⟩ => rfl)

end Reads

end Cert.KernelSide

end
-- ==== Proof.KernelFinal.lean ====
/-
  The kernel's call leaves the whole [128, 4096] array at the network's outputs.

  The grid has 16 × 4 points. Point (t₀, t₁) works on batches 8·t₀ … 8·t₀ + 7 and on the 1024 pairs
  1024·t₁ … 1024·t₁ + 1023 of each, that is node rows i = 16·t₁ … 16·t₁ + 15 against every node j: it is handed the
  node block of those eight batches, the edge block of those pairs, and the weights whole, and it writes block
  (t₀, t₁) of the result. Entry (bb, q) of that block is the network's output for batch 8·t₀ + bb and pair
  1024·t₁ + q, because q / 64 is the local node-i row and q % 64 the node j. The 64 blocks tile the array.
-/
import proofs.«146328_j40922448396322_2_alg».proof.Proof.BlockValue
import proofs.«146328_j40922448396322_2_alg».proof.Proof.HostSide

set_option maxRecDepth 16384

noncomputable section

open Idealize.ShloMosaic Idealize.ShloMosaic.TcCoe Idealize.SL.Sem Idealize.ShloMosaic.ValueIdx
open Idealize.ShloMosaic.Pipeline (Dat)

namespace Cert.KernelSide

open Cert.KernelIdeal Cert.KernelIdeal.Gen Cert.PairMLP

variable (m : (ℓ : Loc nD τ sig) → Buf (Elt Ideal) ℓ) (ρ : Dev nD → PrngReg)

/-- The printed index maps over the grid: the output block and the edge block move with both grid coordinates, the
    node block with the first only, the weights not at all; the body's own second coordinate is the point's. -/
theorem idx_facts : ∀ t : Fin cfg0.N,
    win0_10.index t (0 : Fin 2) = t.val / 4 ∧ win0_10.index t (1 : Fin 2) = t.val % 4
    ∧ win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ ((grid0.coords t) 1).val = t.val % 4 :=
  (by decide +kernel : ∀ t : Fin grid0.N, _)

theorem idx_facts_w : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-! ## The blocks a point is handed, read off the arrays -/

/-- The weights and biases are handed over whole at every point. -/
theorem iblk_2 (c : Dev nD) (t : Fin cfg0.N) : (iblk m c 2 t : S128x256.Idx → _) = V m c main_v0 := by
  funext y
  show V m c main_v0 (((cfg0.win 2).blk t).view.emb y) = V m c main_v0 y
  refine congrArg _ (funext fun a => Fin.ext ?_)
  obtain ⟨f20, f21, f30, f31, f40, f41, f50, f60, f61, f70, f80, f81, f90⟩ := idx_facts_w t
  match a with
  | ⟨0, _⟩ => show win0_2.index t (0 : Fin 2) * 128 + 1 * (y 0).val = (y 0).val; omega
  | ⟨1, _⟩ => show win0_2.index t (1 : Fin 2) * 256 + 1 * (y 1).val = (y 1).val; omega

theorem iblk_3 (c : Dev nD) (t : Fin cfg0.N) : (iblk m c 3 t : S32x256.Idx → _) = V m c main_v1 := by
  funext y
  show V m c main_v1 (((cfg0.win 3).blk t).view.emb y) = V m c main_v1 y
  refine congrArg _ (funext fun a => Fin.ext ?_)
  obtain ⟨f20, f21, f30, f31, f40, f41, f50, f60, f61, f70, f80, f81, f90⟩ := idx_facts_w t
  match a with
  | ⟨0, _⟩ => show win0_3.index t (0 : Fin 2) * 32 + 1 * (y 0).val = (y 0).val; omega
  | ⟨1, _⟩ => show win0_3.index t (1 : Fin 2) * 256 + 1 * (y 1).val = (y 1).val; omega

theorem iblk_4 (c : Dev nD) (t : Fin cfg0.N) : (iblk m c 4 t : S128x256.Idx → _) = V m c main_v2 := by
  funext y
  show V m c main_v2 (((cfg0.win 4).blk t).view.emb y) = V m c main_v2 y
  refine congrArg _ (funext fun a => Fin.ext ?_)
  obtain ⟨f20, f21, f30, f31, f40, f41, f50, f60, f61, f70, f80, f81, f90⟩ := idx_facts_w t
  match a with
  | ⟨0, _⟩ => show win0_4.index t (0 : Fin 2) * 128 + 1 * (y 0).val = (y 0).val; omega
  | ⟨1, _⟩ => show win0_4.index t (1 : Fin 2) * 256 + 1 * (y 1).val = (y 1).val; omega

theorem iblk_5 (c : Dev nD) (t : Fin cfg0.N) : (iblk m c 5 t : S256.Idx → _) = V m c main_arg3 := by
  funext y
  show V m c main_arg3 (((cfg0.win 5).blk t).view.emb y) = V m c main_arg3 y
  refine congrArg _ (funext fun a => Fin.ext ?_)
  obtain ⟨f20, f21, f30, f31, f40, f41, f50, f60, f61, f70, f80, f81, f90⟩ := idx_facts_w t
  match a with
  | ⟨0, _⟩ => show win0_5.index t (0 : Fin 1) * 256 + 1 * (y 0).val = (y 0).val; omega

theorem iblk_6 (c : Dev nD) (t : Fin cfg0.N) : (iblk m c 6 t : S256x256.Idx → _) = V m c main_v3 := by
  funext y
  show V m c main_v3 (((cfg0.win 6).blk t).view.emb y) = V m c main_v3 y
  refine congrArg _ (funext fun a => Fin.ext ?_)
  obtain ⟨f20, f21, f30, f31, f40, f41, f50, f60, f61, f70, f80, f81, f90⟩ := idx_facts_w t
  match a with
  | ⟨0, _⟩ => show win0_6.index t (0 : Fin 2) * 256 + 1 * (y 0).val = (y 0).val; omega
  | ⟨1, _⟩ => show win0_6.index t (1 : Fin 2) * 256 + 1 * (y 1).val = (y 1).val; omega

theorem iblk_7 (c : Dev nD) (t : Fin cfg0.N) : (iblk m c 7 t : S256.Idx → _) = V m c main_arg5 := by
  funext y
  show V m c main_arg5 (((cfg0.win 7).blk t).view.emb y) = V m c main_arg5 y
  refine congrArg _ (funext fun a => Fin.ext ?_)
  obtain ⟨f20, f21, f30, f31, f40, f41, f50, f60, f61, f70, f80, f81, f90⟩ := idx_facts_w t
  match a with
  | ⟨0, _⟩ => show win0_7.index t (0 : Fin 1) * 256 + 1 * (y 0).val = (y 0).val; omega

theorem iblk_8 (c : Dev nD) (t : Fin cfg0.N) : (iblk m c 8 t : S1x256.Idx → _) = V m c main_v4 := by
  funext y
  show V m c main_v4 (((cfg0.win 8).blk t).view.emb y) = V m c main_v4 y
  refine congrArg _ (funext fun a => Fin.ext ?_)
  obtain ⟨f20, f21, f30, f31, f40, f41, f50, f60, f61, f70, f80, f81, f90⟩ := idx_facts_w t
  match a with
  | ⟨0, _⟩ => show win0_8.index t (0 : Fin 2) * 1 + 1 * (y 0).val = (y 0).val; omega
  | ⟨1, _⟩ => show win0_8.index t (1 : Fin 2) * 256 + 1 * (y 1).val = (y 1).val; omega

theorem iblk_9 (c : Dev nD) (t : Fin cfg0.N) : (iblk m c 9 t : S1.Idx → _) = V m c main_arg7 := by
  funext y
  show V m c main_arg7 (((cfg0.win 9).blk t).view.emb y) = V m c main_arg7 y
  refine congrArg _ (funext fun a => Fin.ext ?_)
  obtain ⟨f20, f21, f30, f31, f40, f41, f50, f60, f61, f70, f80, f81, f90⟩ := idx_facts_w t
  match a with
  | ⟨0, _⟩ => show win0_9.index t (0 : Fin 1) * 1 + 1 * (y 0).val = (y 0).val; omega

/-- The node block of point `t`: batches 8·(t / 4) …, every node. -/
theorem iblk_0_at (c : Dev nD) (t : Fin cfg0.N) (bb : Fin 8) (n : Fin 64) (k : Fin 128) :
    iblk m c 0 t (ix3 bb n k)
      = V m c main_arg0 (ix3 (⟨t.val / 4 * 8 + bb.val, by have := t.isLt; have hN : cfg0.N = 64 := N_0; have := bb.isLt; omega⟩ : Fin 128) n k) := by
  show V m c main_arg0 (((cfg0.win 0).blk t).view.emb (ix3 bb n k)) = _
  refine congrArg _ (funext fun a => Fin.ext ?_)
  obtain ⟨g0, g1, a0, a1, a2, e0, e1, e2, hc⟩ := idx_facts t
  match a with
  | ⟨0, _⟩ => show win0_0.index t (0 : Fin 3) * 8 + 1 * bb.val = t.val / 4 * 8 + bb.val; omega
  | ⟨1, _⟩ => show win0_0.index t (1 : Fin 3) * 64 + 1 * n.val = n.val; omega
  | ⟨2, _⟩ => show win0_0.index t (2 : Fin 3) * 128 + 1 * k.val = k.val; omega

/-- The edge block of point `t`: the same batches, pairs 1024·(t % 4) …. -/
theorem iblk_1_at (c : Dev nD) (t : Fin cfg0.N) (bb : Fin 8) (q : Fin 1024) (k : Fin 32) :
    iblk m c 1 t (ix3 bb q k)
      = V m c main_arg1 (ix3 (⟨t.val / 4 * 8 + bb.val, by have := t.isLt; have hN : cfg0.N = 64 := N_0; have := bb.isLt; omega⟩ : Fin 128)
          (⟨t.val % 4 * 1024 + q.val, by have := q.isLt; omega⟩ : Fin 4096) k) := by
  show V m c main_arg1 (((cfg0.win 1).blk t).view.emb (ix3 bb q k)) = _
  refine congrArg _ (funext fun a => Fin.ext ?_)
  obtain ⟨g0, g1, a0, a1, a2, e0, e1, e2, hc⟩ := idx_facts t
  match a with
  | ⟨0, _⟩ => show win0_1.index t (0 : Fin 3) * 8 + 1 * bb.val = t.val / 4 * 8 + bb.val; omega
  | ⟨1, _⟩ => show win0_1.index t (1 : Fin 3) * 1024 + 1 * q.val = t.val % 4 * 1024 + q.val; omega
  | ⟨2, _⟩ => show win0_1.index t (2 : Fin 3) * 32 + 1 * k.val = k.val; omega

/-! ## What a point writes back -/

/-- Entry (bb, q) of the block point `t` leaves is the network's output for batch 8·(t / 4) + bb and pair
    1024·(t % 4) + q: the pair's node-i row is row 16·(t % 4) + q / 64 of the node block, its node j is q % 64. -/
theorem flushed_at (c : Dev nD) (t : Fin cfg0.N) (bb : Fin 8) (q : Fin 1024) :
    k0_pay1 (F := Ideal) (k0_pay2 (iblk m c 0 t) (rowsI (grid0.coords t) (iblk m c 0 t)) (iblk m c 1 t) (iblk m c 2 t) (iblk m c 4 t)
          (iblk m c 3 t) (iblk m c 5 t))
        (k0_pay3 (iblk m c 6 t)) (constant (F := Ideal) S8192x256 .f32 0x00000000#32) (iblk m c 7 t) (iblk m c 8 t) (iblk m c 9 t) (ix2 bb q)
      = outAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))
          (⟨t.val / 4 * 8 + bb.val, by have := t.isLt; have hN : cfg0.N = 64 := N_0; have := bb.isLt; omega⟩ : Fin 128)
          (⟨t.val % 4 * 1024 + q.val, by have := q.isLt; omega⟩ : Fin 4096) := by
  rw [block_apply]
  unfold outAt
  rw [iblk_2, iblk_3, iblk_4, iblk_5, iblk_6, iblk_7, iblk_8, iblk_9, V_w1a, V_w1b, V_w1c, V_w2, V_w3row, V_main_arg3, V_main_arg5, V_main_arg7]
  obtain ⟨g0, g1, a0, a1, a2, e0, e1, e2, hc⟩ := idx_facts t
  refine congr (congrArg₂ score (funext fun k => w3row_at _ k) rfl)
    (congr (congrArg₂ hid2 rfl rfl) (congr (congr (congr (congr (congr (congr (congrArg hid1 ?_) ?_) ?_) rfl) ?_) ?_) ?_))
  · exact funext fun k => funext fun h => w1a_at _ k h
  · exact funext fun k => funext fun h => w1b_at _ k h
  · exact funext fun k => funext fun h => w1c_at _ k h
  · exact funext fun k => (iblk_1_at m c t bb q k).trans (congrFun (V_main_arg1 m c) _)
  · funext k
    refine (iblk_0_at m c t bb _ k).trans ((congrFun (V_main_arg0 m c) _).trans ?_)
    refine congrArg _ (congrArg (fun n => ix3 _ n k) (Fin.ext ?_))
    show 16 * ((grid0.coords t) 1).val + q.val / 64 = (t.val % 4 * 1024 + q.val) / 64
    omega
  · funext k
    refine (iblk_0_at m c t bb _ k).trans ((congrFun (V_main_arg0 m c) _).trans ?_)
    refine congrArg _ (congrArg (fun n => ix3 _ n k) (Fin.ext ?_))
    show q.val % 64 = (t.val % 4 * 1024 + q.val) % 64
    omega

/-- The same for the whole block, as a function of the block index. -/
theorem flushed_fun (c : Dev nD) (t : Fin cfg0.N) :
    (k0_pay1 (F := Ideal) (k0_pay2 (iblk m c 0 t) (rowsI (grid0.coords t) (iblk m c 0 t)) (iblk m c 1 t) (iblk m c 2 t) (iblk m c 4 t)
          (iblk m c 3 t) (iblk m c 5 t))
        (k0_pay3 (iblk m c 6 t)) (constant (F := Ideal) S8192x256 .f32 0x00000000#32) (iblk m c 7 t) (iblk m c 8 t) (iblk m c 9 t)
        : S8x1024.Idx → EReal)
      = fun j => outAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))
          (⟨t.val / 4 * 8 + (j 0).val, by have := t.isLt; have hN : cfg0.N = 64 := N_0; have : (j 0).val < 8 := (j 0).isLt; omega⟩ : Fin 128)
          (⟨t.val % 4 * 1024 + (j 1).val, by have : (j 1).val < 1024 := (j 1).isLt; omega⟩ : Fin 4096) := by
  funext j
  obtain ⟨bb, q, rfl⟩ : ∃ (bb : Fin 8) (q : Fin 1024), j = ix2 bb q := ⟨j 0, j 1, eq_ix2 j⟩
  exact flushed_at m c t bb q

/-- What point `t` writes back is block `t` of the array of the network's outputs. -/
theorem flushed_eq (c : Dev nD) (t : Fin cfg0.N) :
    (dats m 0 c).flushed 10 t = ((cfg0.win 10).blk t).view.read (Elt Ideal)
      (G2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))) := by
  show (cfg0.win 10).cut (grid0.coords t) ((dats m 0 c).after 10 t) = _
  rw [after0_10]
  unfold outsAt0
  rw [out_block, flushed_fun]
  obtain ⟨g0, g1, a0, a1, a2, e0, e1, e2, hc⟩ := idx_facts t
  funext j
  show outAt _ _ _ _ _ _ _ _ _ _ = outAt _ _ _ _ _ _ _ _ ((((cfg0.win 10).blk t).view.emb j) 0) ((((cfg0.win 10).blk t).view.emb j) 1)
  refine congrArg₂ (outAt _ _ _ _ _ _ _ _) (Fin.ext ?_) (Fin.ext ?_)
  · show t.val / 4 * 8 + (j 0).val = win0_10.index t (0 : Fin 2) * 8 + 1 * (j 0).val
    omega
  · show t.val % 4 * 1024 + (j 1).val = win0_10.index t (1 : Fin 2) * 1024 + 1 * (j 1).val
    omega

/-! ## The blocks tile the array -/

/-- An index of the array lies in point `t`'s block when each coordinate lies in the block's range on its axis. -/
theorem mem_blk (t : Fin cfg0.N) (i : S128x4096.Idx) :
    i ∈ ((cfg0.win 10).blk t).view.set ↔ ∀ a : Fin 2, win0_10.index t a * S8x1024.size a ≤ (i a).val ∧ (i a).val < win0_10.index t a * S8x1024.size a + S8x1024.size a := by
  show i ∈ ((View.whole main_v5).slice (win0_10.rect t)).set ↔ _
  rw [View.set_slice_whole, Rect.mem_set_unit]
  exact Iff.rfl

/-- Entry (b, p) of the array lies in the block of point 4·(b / 8) + p / 1024. -/
theorem covered (i : S128x4096.Idx) :
    ∃ t : Fin cfg0.N, (cfg0.win 10).flush t = true ∧ i ∈ ((cfg0.win 10).blk t).view.set := by
  have h0 : (i 0).val < 128 := (i 0).isLt
  have h1 : (i 1).val < 4096 := (i 1).isLt
  have hN : cfg0.N = 64 := N_0
  have ht : (i 0).val / 8 * 4 + (i 1).val / 1024 < cfg0.N := by omega
  refine ⟨⟨(i 0).val / 8 * 4 + (i 1).val / 1024, ht⟩, flush0_10 _, ?_⟩
  rw [mem_blk]
  obtain ⟨g0, g1, -⟩ := idx_facts ⟨(i 0).val / 8 * 4 + (i 1).val / 1024, ht⟩
  have g0' : win0_10.index ⟨(i 0).val / 8 * 4 + (i 1).val / 1024, ht⟩ (0 : Fin 2) = ((i 0).val / 8 * 4 + (i 1).val / 1024) / 4 := g0
  have g1' : win0_10.index ⟨(i 0).val / 8 * 4 + (i 1).val / 1024, ht⟩ (1 : Fin 2) = ((i 0).val / 8 * 4 + (i 1).val / 1024) % 4 := g1
  intro a
  match a with
  | ⟨0, _⟩ =>
    show win0_10.index _ (0 : Fin 2) * 8 ≤ (i 0).val ∧ (i 0).val < win0_10.index _ (0 : Fin 2) * 8 + 8
    omega
  | ⟨1, _⟩ =>
    show win0_10.index _ (1 : Fin 2) * 1024 ≤ (i 1).val ∧ (i 1).val < win0_10.index _ (1 : Fin 2) * 1024 + 1024
    omega

/-- So the call leaves the whole result array at the network's outputs. -/
theorem final10 (c : Dev nD) :
    (dats m 0 c).arrAt 10 cfg0.N = G2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (dats m 0 c).arrAt_eq_of_cover 10 _ (fun t _ => flushed_eq m c t) covered

/-! ## The host's last line -/

/-- After the call the host gives the result a trailing axis of extent one: entry (b, p, 0) of the program's result is
    entry (b, p) of the array the call left. -/
theorem tail_eq (c : Dev nD) :
    Pipeline.afterTail₀ cfgs (dats m) 0 (V0 m) [hostOps1] c main_v6
      = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = G2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
    (Pipeline.withArrays_arr spec0 launch0.win.arr_inj c _ _ 10).trans (final10 m c)
  refine (congrArg (broadcastInDim S128x4096x1 ![0, 1] bcast_S128x4096_S128x4096x1_0_1) e).trans ?_
  funext idx
  refine (broadcastInDim_apply _ bcast_S128x4096_S128x4096x1_0_1 _ idx (ix2 (idx 0) (idx 1)) (fun a => match a with
    | ⟨0, _⟩ => by show (idx 0).val = if (128 : Nat) = 1 then 0 else (idx 0).val; rw [if_neg (by decide)]
    | ⟨1, _⟩ => by show (idx 1).val = if (4096 : Nat) = 1 then 0 else (idx 1).val; rw [if_neg (by decide)])).trans ?_
  rfl

/-! ## The run -/

/-- Every weakly fair execution of the kernel's program terminates with its result at the network's outputs of the
    argument arrays and the arguments unchanged: the frame run, with the result read through the host's last line and
    the call's array, and each argument read as the frame reads it. -/
theorem run : θ_run defs (onTc (τ := τ) (main (F := Ideal))) ⟨m, fun _ => 0, ρ⟩ fun r => ∀ c : Dev nD,
      r.2.mem ((c.tc : Thread nD τ).loc main_v6)
        = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 5).trans (((dats m 0 c).arrAt_in 5 rfl _).trans ((A_eq m c 5).trans (V_main_arg3 m c))),
      (((h c).2 main_arg4 (Pipeline.mem_restRefs_of main_arg4 (by decide) (by decide))).trans (W_main_arg4 m (dats m) c)),
      ((h c).1 7).trans (((dats m 0 c).arrAt_in 7 rfl _).trans ((A_eq m c 7).trans (V_main_arg5 m c))),
      (((h c).2 main_arg6 (Pipeline.mem_restRefs_of main_arg6 (by decide) (by decide))).trans (W_main_arg6 m (dats m) c)),
      ((h c).1 9).trans (((dats m 0 c).arrAt_in 9 rfl _).trans ((A_eq m c 9).trans (V_main_arg7 m c)))⟩)
    (run_main m ρ)

end Cert.KernelSide

end
-- ==== Proof.LibSplitSum.lean ====
/-
  A finite sum over `a + b` consecutive positions is the sum over the first `a` of them plus the sum over the
  last `b`, in any commutative monoid. On the extended reals this is the law by which a contraction against two
  matrices laid side by side (one joined row of `a + b` entries) is the sum of the two separate contractions: it
  uses only that addition is commutative and associative, so it holds at the infinities too, with no finiteness
  hypothesis. Nothing here depends on a program.
-/
import Mathlib.Algebra.BigOperators.Fin

namespace Cert.SplitSum

/-- The sum over `Fin n`, `n = a + b`, splits at position `a`: the first `a` positions keep their numbers, the
    last `b` are numbered from `a` on. -/
theorem sum_fin_split {M : Type*} [AddCommMonoid M] {a b n : ℕ} (hn : a + b = n) (f : Fin n → M) :
    ∑ k : Fin n, f k
      = ∑ k : Fin a, f ⟨k.val, by have := k.isLt; omega⟩ + ∑ k : Fin b, f ⟨a + k.val, by have := k.isLt; omega⟩ := by
  subst hn
  exact Fin.sum_univ_add f

/-- The same with each half's summand named: whatever the summand is known to be on the first `a` positions
    (`h₁`) and on the last `b` (`h₂`), the whole sum is the two named sums added. -/
theorem sum_fin_split_of_eq {M : Type*} [AddCommMonoid M] {a b n : ℕ} (hn : a + b = n) (f : Fin n → M)
    (g₁ : Fin a → M) (g₂ : Fin b → M)
    (h₁ : ∀ k : Fin a, f ⟨k.val, by have := k.isLt; omega⟩ = g₁ k)
    (h₂ : ∀ k : Fin b, f ⟨a + k.val, by have := k.isLt; omega⟩ = g₂ k) :
    ∑ k : Fin n, f k = ∑ k : Fin a, g₁ k + ∑ k : Fin b, g₂ k := by
  rw [sum_fin_split hn f]
  exact congrArg₂ (· + ·) (Finset.sum_congr rfl fun k _ => h₁ k) (Finset.sum_congr rfl fun k _ => h₂ k)

end Cert.SplitSum
-- ==== Proof.RefValue.lean ====
/-
  The reference program's result, read one output entry at a time, is the specification `G`.

  The reference builds, for every batch `b` and pair `p`, one joined row of 288 numbers by laying three arrays side by
  side along the last axis: node `p / 64`'s 128 features (the node array repeated along a new axis and flattened), the
  pair's 32 edge features, and node `p % 64`'s 128 features. It then applies three dense layers, each a contraction
  over the previous layer's units plus a bias, the first two followed by a maximum with zero.

  Read at an index: a repetition or a flattening reads its operand at an index computed by division and remainder of
  the flat position; a side-by-side joining reads the one piece whose span holds the position; a contraction is a finite
  sum. The sum over the 288 positions of the joined row is split at 128 and at 160 into its three stretches, and the
  stretches are added in the specification's order; this uses only that addition on the extended reals is commutative
  and associative, so no input has to be finite. The zero the maximum is taken with is the number zero.
-/
import proofs.«146328_j40922448396322_2_alg».proof.Proof.Spec
import proofs.«146328_j40922448396322_2_alg».proof.Proof.LibSplitSum
import proofs.«146328_j40922448396322_2_alg».proof.Proof.Gen.ReferenceIdeal.Read
import Idealize.ShloMosaic.Lib.Pipeline.Value
import Idealize.ShloMosaic.Lib.ValueIdx
import Idealize.ShloMosaic.PureOps.Ideal.Laws

noncomputable section

namespace Cert.RefSide

open Idealize.ShloMosaic Idealize.ShloMosaic.ValueIdx Cert.ReferenceIdeal Cert.ReferenceIdeal.Read Cert.PairMLP

/-- The first broadcast-and-reshape chain repeats node `p / 64`'s features along the pair axis. -/
theorem nodeI_at (x0 : (⟨S128x64x128, .f32⟩ : BufTy).Contents (Elt Ideal)) (b : Fin 128) (p : Fin 4096) (k : Fin 128) :
    val_main_v2 (F := Ideal) x0 (ix3 b p k)
      = x0 (ix3 b (⟨p.val / 64, by have := p.isLt; omega⟩ : Fin 64) k) := by
  refine (val_main_v2_apply x0 _).trans ?_
  refine (val_main_v1_apply x0 _).trans ?_
  refine (val_main_v0_apply x0 _).trans ?_
  refine congrArg x0 (funext fun a => Fin.ext ?_)
  have hb := b.isLt
  have hp := p.isLt
  have hk := k.isLt
  match a with
  | ⟨0, _⟩ => show ((b.val * 4096 + p.val) * 128 + k.val) / 524288 = b.val; omega
  | ⟨1, _⟩ => show ((b.val * 4096 + p.val) * 128 + k.val) / 8192 % 64 = p.val / 64; omega
  | ⟨2, _⟩ => show ((b.val * 4096 + p.val) * 128 + k.val) % 128 = k.val; omega

/-- The second chain repeats node `p % 64`'s features. -/
theorem nodeJ_at (x0 : (⟨S128x64x128, .f32⟩ : BufTy).Contents (Elt Ideal)) (b : Fin 128) (p : Fin 4096) (k : Fin 128) :
    val_main_v5 (F := Ideal) x0 (ix3 b p k)
      = x0 (ix3 b (⟨p.val % 64, by omega⟩ : Fin 64) k) := by
  refine (val_main_v5_apply x0 _).trans ?_
  refine (val_main_v4_apply x0 _).trans ?_
  refine (val_main_v3_apply x0 _).trans ?_
  refine congrArg x0 (funext fun a => Fin.ext ?_)
  have hb := b.isLt
  have hp := p.isLt
  have hk := k.isLt
  match a with
  | ⟨0, _⟩ => show ((b.val * 4096 + p.val) * 128 + k.val) / 524288 = b.val; omega
  | ⟨1, _⟩ => show ((b.val * 4096 + p.val) * 128 + k.val) / 128 % 64 = p.val % 64; omega
  | ⟨2, _⟩ => show ((b.val * 4096 + p.val) * 128 + k.val) % 128 = k.val; omega

/-- The joined row's first stretch (positions 0–127) is the first piece. -/
theorem row_fst (x0 : (⟨S128x64x128, .f32⟩ : BufTy).Contents (Elt Ideal)) (x1 : (⟨S128x4096x32, .f32⟩ : BufTy).Contents (Elt Ideal))
    (b : Fin 128) (p : Fin 4096) (k : Fin 128) :
    val_main_v6 (F := Ideal) x0 x1 (ix3 b p (⟨k.val, by have := k.isLt; omega⟩ : Fin 288))
      = val_main_v2 (F := Ideal) x0 (ix3 b p k) := by
  unfold val_main_v6
  refine concatenate_apply_piece (2 : Fin S128x4096x288.rank) _ _ _ 0 (by show (0 : Nat) < 3; omega) S128x4096x128 (val_main_v2 (F := Ideal) x0) rfl rfl
    0 rfl (ix3 b p k) (fun a ha => ?_) ?_
  · match a with
    | ⟨0, _⟩ => rfl
    | ⟨1, _⟩ => rfl
    | ⟨2, _⟩ => exact absurd rfl ha
  · show 0 + k.val = k.val
    omega

/-- The middle stretch (positions 128–159) is the edge array. -/
theorem row_mid (x0 : (⟨S128x64x128, .f32⟩ : BufTy).Contents (Elt Ideal)) (x1 : (⟨S128x4096x32, .f32⟩ : BufTy).Contents (Elt Ideal))
    (b : Fin 128) (p : Fin 4096) (k : Fin 32) :
    val_main_v6 (F := Ideal) x0 x1 (ix3 b p (⟨128 + k.val, by have := k.isLt; omega⟩ : Fin 288))
      = x1 (ix3 b p k) := by
  unfold val_main_v6
  refine concatenate_apply_piece (2 : Fin S128x4096x288.rank) _ _ _ 1 (by show (1 : Nat) < 3; omega) S128x4096x32 x1 rfl rfl
    128 rfl (ix3 b p k) (fun a ha => ?_) ?_
  · match a with
    | ⟨0, _⟩ => rfl
    | ⟨1, _⟩ => rfl
    | ⟨2, _⟩ => exact absurd rfl ha
  · rfl

/-- The last stretch (positions 160–287) is the third piece. -/
theorem row_lst (x0 : (⟨S128x64x128, .f32⟩ : BufTy).Contents (Elt Ideal)) (x1 : (⟨S128x4096x32, .f32⟩ : BufTy).Contents (Elt Ideal))
    (b : Fin 128) (p : Fin 4096) (k : Fin 128) :
    val_main_v6 (F := Ideal) x0 x1 (ix3 b p (⟨160 + k.val, by have := k.isLt; omega⟩ : Fin 288))
      = val_main_v5 (F := Ideal) x0 (ix3 b p k) := by
  unfold val_main_v6
  refine concatenate_apply_piece (2 : Fin S128x4096x288.rank) _ _ _ 2 (by show (2 : Nat) < 3; omega) S128x4096x128 (val_main_v5 (F := Ideal) x0) rfl rfl
    160 rfl (ix3 b p k) (fun a ha => ?_) ?_
  · match a with
    | ⟨0, _⟩ => rfl
    | ⟨1, _⟩ => rfl
    | ⟨2, _⟩ => exact absurd rfl ha
  · rfl

/-- Reordering the three stretches: only commutativity and associativity of addition. -/
theorem stretch_reorder (I E J : EReal) : I + (E + J) = (E + I) + J := by
  rw [← add_assoc, add_comm I E]

/-- The relu's zero array reads as the number zero. -/
theorem relu0_zero (i : S128x4096x256.Idx) : val_main_call0_v0 (F := Ideal) i = 0 := by
  refine (val_main_call0_v0_apply _).trans ?_
  refine (val_main_call0_cst_apply _).trans ?_
  exact Ideal.ofBits_zero_f32

/-- The second relu's zero array reads as the number zero too. -/
theorem relu1_zero (i : S128x4096x256.Idx) : val_main_call1_v0 (F := Ideal) i = 0 := by
  refine (val_main_call1_v0_apply _).trans ?_
  refine (val_main_call1_cst_apply _).trans ?_
  exact Ideal.ofBits_zero_f32

/-- The first bias, broadcast over batch and pair, reads the vector at the hidden unit. -/
theorem bias1_at (x3 : (⟨S256, .f32⟩ : BufTy).Contents (Elt Ideal)) (b : Fin 128) (p : Fin 4096) (h : Fin 256) :
    val_main_v9 (F := Ideal) x3 (ix3 b p h) = x3 (ix1 h) := by
  refine (val_main_v9_apply x3 _).trans ?_
  refine (val_main_v8_apply x3 _).trans ?_
  exact congrArg x3 (funext fun a => match a with | ⟨0, _⟩ => rfl)

/-- The second bias, broadcast the same way, reads the vector at the hidden unit. -/
theorem bias2_at (x5 : (⟨S256, .f32⟩ : BufTy).Contents (Elt Ideal)) (b : Fin 128) (p : Fin 4096) (h : Fin 256) :
    val_main_v14 (F := Ideal) x5 (ix3 b p h) = x5 (ix1 h) := by
  refine (val_main_v14_apply x5 _).trans ?_
  refine (val_main_v13_apply x5 _).trans ?_
  exact congrArg x5 (funext fun a => match a with | ⟨0, _⟩ => rfl)

/-- The output bias, one number broadcast to every batch and pair, reads the vector's only entry. -/
theorem bias3_at (x7 : (⟨S1, .f32⟩ : BufTy).Contents (Elt Ideal)) (b : Fin 128) (p : Fin 4096) (c : Fin 1) :
    val_main_v19 (F := Ideal) x7 (ix3 b p c) = x7 (ix1 (0 : Fin 1)) := by
  refine (val_main_v19_apply x7 _).trans ?_
  refine (val_main_v18_apply x7 _).trans ?_
  exact congrArg x7 (funext fun a => match a with | ⟨0, _⟩ => rfl)

/-- The contraction of the joined row against the first weight matrix, split into its three stretches. -/
theorem dot1_at (x0 : (⟨S128x64x128, .f32⟩ : BufTy).Contents (Elt Ideal)) (x1 : (⟨S128x4096x32, .f32⟩ : BufTy).Contents (Elt Ideal))
    (x2 : (⟨S288x256, .f32⟩ : BufTy).Contents (Elt Ideal)) (b : Fin 128) (p : Fin 4096) (h : Fin 256) :
    val_main_v7 (F := Ideal) x0 x1 x2 (ix3 b p h)
      = (∑ k : Fin 32, x1 (ix3 b p k) * x2 (ix2 (⟨128 + k.val, by have := k.isLt; omega⟩ : Fin 288) h)
          + ∑ k : Fin 128, x0 (ix3 b (⟨p.val / 64, by have := p.isLt; omega⟩ : Fin 64) k)
              * x2 (ix2 (⟨k.val, by have := k.isLt; omega⟩ : Fin 288) h))
        + ∑ k : Fin 128, x0 (ix3 b (⟨p.val % 64, by omega⟩ : Fin 64) k)
              * x2 (ix2 (⟨160 + k.val, by have := k.isLt; omega⟩ : Fin 288) h) := by
  refine (val_main_v7_apply x0 x1 x2 _).trans ?_
  -- the summand at position k of the joined row
  let f : Fin 288 → EReal := fun k => val_main_v6 (F := Ideal) x0 x1 (ix3 b p k) * x2 (ix2 k h)
  have hf : (∑ k : Fin 288, val_main_v6 (F := Ideal) x0 x1 (lidx_main_v7 (ix3 b p h) k) * x2 (ridx_main_v7 (ix3 b p h) k))
      = ∑ k : Fin 288, f k := by
    refine Finset.sum_congr rfl fun k _ => ?_
    have el : lidx_main_v7 (ix3 b p h) k = ix3 b p k :=
      funext fun a => match a with | ⟨0, _⟩ => rfl | ⟨1, _⟩ => rfl | ⟨2, _⟩ => rfl
    have er : ridx_main_v7 (ix3 b p h) k = ix2 k h :=
      funext fun a => match a with | ⟨0, _⟩ => rfl | ⟨1, _⟩ => rfl
    rw [el, er]
  refine hf.trans ?_
  -- the last 160 positions, numbered from 128 on
  let g : Fin 160 → EReal := fun k => f ⟨128 + k.val, by have := k.isLt; omega⟩
  have h2 : ∑ k : Fin 160, g k
      = ∑ k : Fin 32, x1 (ix3 b p k) * x2 (ix2 (⟨128 + k.val, by have := k.isLt; omega⟩ : Fin 288) h)
        + ∑ k : Fin 128, x0 (ix3 b (⟨p.val % 64, by omega⟩ : Fin 64) k)
              * x2 (ix2 (⟨160 + k.val, by have := k.isLt; omega⟩ : Fin 288) h) := by
    refine Cert.SplitSum.sum_fin_split_of_eq (a := 32) (b := 128) (by norm_num) g _ _ (fun k => ?_) (fun k => ?_)
    · show val_main_v6 (F := Ideal) x0 x1 (ix3 b p ⟨128 + k.val, _⟩) * x2 (ix2 ⟨128 + k.val, _⟩ h) = _
      rw [row_mid x0 x1 b p k]
    · have e : (⟨128 + (32 + k.val), by have := k.isLt; omega⟩ : Fin 288) = ⟨160 + k.val, by have := k.isLt; omega⟩ :=
        Fin.ext (by show 128 + (32 + k.val) = 160 + k.val; omega)
      refine (congrArg f e).trans ?_
      show val_main_v6 (F := Ideal) x0 x1 (ix3 b p ⟨160 + k.val, _⟩) * x2 (ix2 ⟨160 + k.val, _⟩ h) = _
      rw [row_lst x0 x1 b p k, nodeJ_at x0 b p k]
  have h1 : ∑ k : Fin 288, f k
      = ∑ k : Fin 128, x0 (ix3 b (⟨p.val / 64, by have := p.isLt; omega⟩ : Fin 64) k)
              * x2 (ix2 (⟨k.val, by have := k.isLt; omega⟩ : Fin 288) h)
        + ∑ k : Fin 160, g k := by
    refine Cert.SplitSum.sum_fin_split_of_eq (a := 128) (b := 160) (by norm_num) f _ _ (fun k => ?_) (fun k => rfl)
    show val_main_v6 (F := Ideal) x0 x1 (ix3 b p ⟨k.val, _⟩) * x2 (ix2 ⟨k.val, _⟩ h) = _
    rw [row_fst x0 x1 b p k, nodeI_at x0 b p k]
  rw [h1, h2]
  exact stretch_reorder _ _ _

/-- The first layer's activations of batch `b` and pair `p`, from the argument arrays (the specification's own term). -/
abbrev act1 (x0 : (⟨S128x64x128, .f32⟩ : BufTy).Contents (Elt Ideal)) (x1 : (⟨S128x4096x32, .f32⟩ : BufTy).Contents (Elt Ideal))
    (x2 : (⟨S288x256, .f32⟩ : BufTy).Contents (Elt Ideal)) (x3 : (⟨S256, .f32⟩ : BufTy).Contents (Elt Ideal))
    (b : Fin 128) (p : Fin 4096) : Fin 256 → EReal :=
  hid1 (fun k h => x2 (ix2 (⟨k.val, by have := k.isLt; omega⟩ : Fin 288) h))
    (fun k h => x2 (ix2 (⟨128 + k.val, by have := k.isLt; omega⟩ : Fin 288) h))
    (fun k h => x2 (ix2 (⟨160 + k.val, by have := k.isLt; omega⟩ : Fin 288) h))
    (fun h => x3 (ix1 h))
    (fun k => x1 (ix3 b p k))
    (fun k => x0 (ix3 b (⟨p.val / 64, by have := p.isLt; omega⟩ : Fin 64) k))
    (fun k => x0 (ix3 b (⟨p.val % 64, by omega⟩ : Fin 64) k))

/-- The second layer's activations of batch `b` and pair `p`. -/
abbrev act2 (x0 : (⟨S128x64x128, .f32⟩ : BufTy).Contents (Elt Ideal)) (x1 : (⟨S128x4096x32, .f32⟩ : BufTy).Contents (Elt Ideal))
    (x2 : (⟨S288x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (b : Fin 128) (p : Fin 4096) : Fin 256 → EReal :=
  hid2 (fun h k => x4 (ix2 h k)) (fun k => x5 (ix1 k)) (act1 x0 x1 x2 x3 b p)

/-- The reference's first activation array at (b, p, h): contraction of the joined row, bias, maximum with zero. -/
theorem layer1_at (x0 : (⟨S128x64x128, .f32⟩ : BufTy).Contents (Elt Ideal)) (x1 : (⟨S128x4096x32, .f32⟩ : BufTy).Contents (Elt Ideal))
    (x2 : (⟨S288x256, .f32⟩ : BufTy).Contents (Elt Ideal)) (x3 : (⟨S256, .f32⟩ : BufTy).Contents (Elt Ideal))
    (b : Fin 128) (p : Fin 4096) (h : Fin 256) :
    val_main_v11 (F := Ideal) x0 x1 x2 x3 (ix3 b p h) = act1 x0 x1 x2 x3 b p h := by
  refine (val_main_v11_apply x0 x1 x2 x3 _).trans ?_
  rw [relu0_zero, val_main_v10_apply, dot1_at, bias1_at]
  rfl

/-- The reference's second activation array at (b, p, k): contraction over the first layer's units, bias, maximum
    with zero. -/
theorem layer2_at (x0 : (⟨S128x64x128, .f32⟩ : BufTy).Contents (Elt Ideal)) (x1 : (⟨S128x4096x32, .f32⟩ : BufTy).Contents (Elt Ideal))
    (x2 : (⟨S288x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (b : Fin 128) (p : Fin 4096) (k : Fin 256) :
    val_main_v16 (F := Ideal) x0 x1 x2 x3 x4 x5 (ix3 b p k) = act2 x0 x1 x2 x3 x4 x5 b p k := by
  refine (val_main_v16_apply x0 x1 x2 x3 x4 x5 _).trans ?_
  rw [relu1_zero, val_main_v15_apply, val_main_v12_apply, bias2_at]
  have hs : (∑ h : Fin 256, val_main_v11 (F := Ideal) x0 x1 x2 x3 (lidx_main_v12 (ix3 b p k) h) * x4 (ridx_main_v12 (ix3 b p k) h))
      = ∑ h : Fin 256, act1 x0 x1 x2 x3 b p h * x4 (ix2 h k) := by
    refine Finset.sum_congr rfl fun h _ => ?_
    have el : lidx_main_v12 (ix3 b p k) h = ix3 b p h :=
      funext fun a => match a with | ⟨0, _⟩ => rfl | ⟨1, _⟩ => rfl | ⟨2, _⟩ => rfl
    have er : ridx_main_v12 (ix3 b p k) h = ix2 h k :=
      funext fun a => match a with | ⟨0, _⟩ => rfl | ⟨1, _⟩ => rfl
    rw [el, er, layer1_at]
  rw [hs]
  rfl

/-- **The reference computes the specification**: its result array is `G` of its eight arguments. -/
theorem ref_eq_G (x0 : (⟨S128x64x128, .f32⟩ : BufTy).Contents (Elt Ideal)) (x1 : (⟨S128x4096x32, .f32⟩ : BufTy).Contents (Elt Ideal))
    (x2 : (⟨S288x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x1, .f32⟩ : BufTy).Contents (Elt Ideal)) (x7 : (⟨S1, .f32⟩ : BufTy).Contents (Elt Ideal)) :
    Cert.ReferenceIdeal.Read.val_main_v20 (F := Ideal) x0 x1 x2 x3 x4 x5 x6 x7 = Cert.PairMLP.G x0 x1 x2 x3 x4 x5 x6 x7 := by
  funext idx
  obtain ⟨b, p, c, rfl⟩ : ∃ (b : Fin 128) (p : Fin 4096) (c : Fin 1), idx = ix3 b p c :=
    ⟨idx 0, idx 1, idx 2, eq_ix3 idx⟩
  refine (val_main_v20_apply x0 x1 x2 x3 x4 x5 x6 x7 _).trans ?_
  rw [val_main_v17_apply, bias3_at]
  have hs : (∑ k : Fin 256, val_main_v16 (F := Ideal) x0 x1 x2 x3 x4 x5 (lidx_main_v17 (ix3 b p c) k) * x6 (ridx_main_v17 (ix3 b p c) k))
      = ∑ k : Fin 256, act2 x0 x1 x2 x3 x4 x5 b p k * x6 (ix2 k (0 : Fin 1)) := by
    refine Finset.sum_congr rfl fun k _ => ?_
    have el : lidx_main_v17 (ix3 b p c) k = ix3 b p k :=
      funext fun a => match a with | ⟨0, _⟩ => rfl | ⟨1, _⟩ => rfl | ⟨2, _⟩ => rfl
    have er : ridx_main_v17 (ix3 b p c) k = ix2 k (0 : Fin 1) :=
      funext fun a => match a with
        | ⟨0, _⟩ => rfl
        | ⟨1, _⟩ => Fin.ext (by have := c.isLt; show c.val = 0; omega)
    rw [el, er, layer2_at]
  rw [hs]
  rfl

end Cert.RefSide

end
-- ==== Proof.lean ====
/-
  The certificate's claims for the pairwise-scoring network: a kernel that scores every ordered pair of a batch's 64
  nodes with a three-layer network (first layer 288 → 256 over the joined row [node i | edge | node j], second layer
  256 → 256, output layer 256 → 1) against the plain program that builds the joined rows and applies the three layers.

  On the extended reals both programs compute the same function of the eight argument arrays, one number per batch and
  pair (`Cert.PairMLP.G`). The kernel never builds the joined row: it multiplies the three stretches of the row with the
  matching rows of the first weight matrix separately and adds the three products, edge stretch first, while the plain
  program contracts the whole row at once; a finite sum over 288 consecutive positions is the sum of the sums over its
  stretches, in any order, because addition on the extended reals is commutative and associative — so the inputs'
  finiteness is not used. The second layer's operands pass through a narrower float format in the kernel, which
  changes no ideal value, and the output layer is a product-and-row-sum in the kernel and a contraction against a
  one-column matrix in the plain program: the same sum.

  The kernel side: what a grid point leaves (Proof/Pieces.lean), one entry of it (Proof/BodyHid1.lean,
  Proof/BodyOut.lean, Proof/BlockValue.lean), the arrays the host prepares and its last line (Proof/HostSide.lean), the
  whole array and the run (Proof/KernelFinal.lean). The plain program's side: Proof/RefValue.lean. The two frames of
  the kernel's programs and the plain program's run are the generated modules'; nothing was rewritten when the kernel
  was idealized, so the idealization claim is trivial.
-/
import proofs.«146328_j40922448396322_2_alg».proof.Defs
import proofs.«146328_j40922448396322_2_alg».proof.Proof.Gen.Kernel
import proofs.«146328_j40922448396322_2_alg».proof.Proof.Gen.Kernel.Skeleton
import proofs.«146328_j40922448396322_2_alg».proof.Proof.Gen.Kernel.Launch
import proofs.«146328_j40922448396322_2_alg».proof.Proof.Gen.Kernel.Points
import proofs.«146328_j40922448396322_2_alg».proof.Proof.Gen.Kernel.Frame
import proofs.«146328_j40922448396322_2_alg».proof.Proof.Gen.KernelIdeal
import proofs.«146328_j40922448396322_2_alg».proof.Proof.Gen.KernelIdeal.Skeleton
import proofs.«146328_j40922448396322_2_alg».proof.Proof.Gen.KernelIdeal.Launch
import proofs.«146328_j40922448396322_2_alg».proof.Proof.Gen.KernelIdeal.Points
import proofs.«146328_j40922448396322_2_alg».proof.Proof.Gen.KernelIdeal.Frame
import proofs.«146328_j40922448396322_2_alg».proof.Proof.Gen.ReferenceIdeal
import proofs.«146328_j40922448396322_2_alg».proof.Proof.Gen.ReferenceIdeal.Run
import proofs.«146328_j40922448396322_2_alg».proof.Proof.Gen.ReferenceIdeal.Read
import proofs.«146328_j40922448396322_2_alg».proof.Proof.Gen.Pre_finite_inputs
import proofs.«146328_j40922448396322_2_alg».proof.Proof.KernelFinal
import proofs.«146328_j40922448396322_2_alg».proof.Proof.RefValue
import Idealize.ShloMosaic.Adequacy
import Idealize.ShloMosaic.Init

noncomputable section

namespace Cert.Proof

open Idealize.ShloMosaic Idealize.SL.Sem

/-- The two idealized programs, from memories that agree on the arguments, both end with the array of the network's
    outputs of those arguments: the kernel's program by its run, the plain program by its run read one operation at a
    time. -/
theorem algebraic :
    @Cert.algebraic_KernelIdeal_ReferenceIdeal Cert.KernelIdeal.Gen.facts Cert.ReferenceIdeal.Gen.facts Cert.Pre_finite_inputs.Gen.facts := by
  intro m ρ m' ρ' _ hagree
  refine ⟨fun c => Cert.PairMLP.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.RefSide.ref_eq_G,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
